-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024x1024 .f32) (main_arg2 : FVec F S1024x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S1x1024x1024 : Shape := ⟨3, ![1, 1024, 1024]⟩

abbrev nBuf : Space → Nat
  | .hbm => 12
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S4x1024x1024, .f32⟩
  | .hbm, ⟨11, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_13 : BitVec 32 := 0#32
  let v22 : BitVec 1 := Scalar.cmpi .ne v21 c0_i32_13
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S1024x1024_S1024x1024_S1024x1024_0_0_1_1_n_n_wf : DotDims.WF S1024x1024 S1024x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x1024x1024.size a
  hwx0_3 : ∀ i : grid0.Coords, EltTy.bits .f32 = 32 ∨ (Rect.block (s := S4x1024x1024) S1x1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .f32 = 32 ∨ (Rect.block (s := S4x4096x1024) S1x1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x1024x1024.size a
  hwx1_2 : ∀ i : grid1.Coords, EltTy.bits .f32 = 32 ∨ (Rect.block (s := S4x1024x1024) S1x1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .f32 = 32 ∨ (Rect.block (s := S4x4096x1024) S1x1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x4096 : Shape := ⟨3, ![4, 4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.BitsAccRuns.lean ====
/-
  The first kernel of the program, at its sixteen grid points (b, l), b the batch and l the row tile of X:
  it keeps a 1024 x 1024 accumulator between points, clears it where l = 0, adds the tile's product
  K_l^T V_l at every point, and copies the accumulator into the output block of batch b where l = 3.
  This module decides the two branch conditions over the grid, says where the output window is left
  untouched, and runs the body in each of the three cases that the grid meets:
  first tile (clear, then add), middle tile (add), last tile (add, then copy out).
-/
import proofs.«131122_j82566451298900_2_alg».proof.Proof.Gen.Kernel.Launch
import proofs.«131122_j82566451298900_2_alg».proof.Proof.Gen.Kernel.Skeleton
import proofs.«131122_j82566451298900_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The body clears the accumulator: the row-tile coordinate is 0. -/
abbrev atFirst (i : grid0.Coords) : Prop :=
  (Scalar.cmpi .ne (Scalar.extui (Scalar.cmpi .eq (BitVec.ofNat 32 (i 1).val) 0#32)) 0#32) = 1#1
/-- The points with row-tile coordinate 0 are the points 0, 4, 8, 12. -/
theorem atFirst_iff : ∀ t : Fin cfg0.N, atFirst (grid0.coords t) ↔ t.val % 4 = 0 :=
  (by decide +kernel : ∀ t : Fin grid0.N, atFirst (grid0.coords t) ↔ t.val % 4 = 0)

/-- The body copies the accumulator out: the row-tile coordinate is 3. -/
abbrev atLast (i : grid0.Coords) : Prop := k0_cond2 i = 1#1
/-- The points with row-tile coordinate 3 are the points 3, 7, 11, 15. -/
theorem atLast_iff : ∀ t : Fin cfg0.N, atLast (grid0.coords t) ↔ t.val % 4 = 3 :=
  (by decide +kernel : ∀ t : Fin grid0.N, atLast (grid0.coords t) ↔ t.val % 4 = 3)

/-! ## Where the output window is left untouched -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last row tile the body stores nothing into the output block, -/
theorem idle0_3 : ∀ t : Fin cfg0.N, ¬atLast (grid0.coords t) → cfg0.idle 3 (grid0.coords t) = true := by decide +kernel
/-- and the block is not written back there; -/
theorem noFlush0_3 : ∀ t : Fin cfg0.N, ¬atLast (grid0.coords t) → (cfg0.win 3).flush t = false := by decide +kernel
/-- at the last row tile it stores the whole block. -/
theorem live0_3 : ∀ t : Fin cfg0.N, atLast (grid0.coords t) → cfg0.idle 3 (grid0.coords t) = false := by decide +kernel

/-! ## The memrefs the body is called with -/

abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
/-- The accumulator: a whole buffer of the kernel's own. -/
abbrev accM : Memref sig .tc .vmem S1024x1024 .f32 := Memref.whole cc0_scratch0
/-- The views through which the accumulator's and the output block's contents are stated. -/
abbrev accV : View sig .tc .vmem S1024x1024 .f32 := accM.view
abbrev outV : View sig .tc .vmem S1x1024x1024 .f32 := (Memref.whole cc0_stg3_0 : Memref sig .tc .vmem S1x1024x1024 .f32).view

/-- The buffers of the core that belong to the second kernel, each at some contents: the first kernel never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- Before the first point the kernel may assume nothing of the accumulator: it is owned at some contents, beside the
    second kernel's buffers and the generator register. -/
theorem PhiA0_eq (c : Dev nD) :
    (Pipeline.ΦA spec0 c : sProp 𝕄)
      = iprop(iprop((∃ d, owns (c : Thread nD τ) accM fullShare d) ∗ otherScoped (F := F) c) ∗ (∃ r, prngReg c r)) := by
  unfold Pipeline.ΦA otherScoped; rw [scopedRest0_eq]; simp only [accM, owns_whole]; try rfl

/-! ## The body in each case -/

set_option maxHeartbeats 1000000 in
/-- FIRST TILE (l = 0). The accumulator holds anything; the body stores zeros into it, loads the three input blocks,
    and stores zeros + K^T V. The output block is handed back as found. The value is the list of stores
    into the accumulator, last first. -/
noncomputable def runFirst (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : atFirst i) (hc1 : ¬atLast i)
    (x0 : Vec F S1x1024x1024 .f32) (x1 : Vec F S1024x1024 .bf16) (x2 : Vec F S1024x1024 .bf16) :
    { LS : List (View.Piece (Elt F) S1024x1024 .f32) //
      ∀ (xi : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__fused_kv_kernel i arg2 harg2 arg3 harg3 arg4 harg4 arg5 harg5 arg6 harg6) K } := by
  refine ⟨?_, fun xi E K => ?run⟩
  case run =>
    simp only [cc0__fused_kv_kernel_eq_skeleton]; unfold cc0__fused_kv_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- MIDDLE TILE (l = 1, 2). The accumulator holds what the point before left (`xs`); the body stores xs + K^T V.
    The output block is handed back as found. -/
noncomputable def runMiddle (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : ¬atLast i)
    (x0 : Vec F S1x1024x1024 .f32) (x1 : Vec F S1024x1024 .bf16) (x2 : Vec F S1024x1024 .bf16) (xs : Vec F S1024x1024 .f32) :
    { LS : List (View.Piece (Elt F) S1024x1024 .f32) //
      ∀ (xi : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__fused_kv_kernel i arg2 harg2 arg3 harg3 arg4 harg4 arg5 harg5 arg6 harg6) K } := by
  refine ⟨?_, fun xi E K => ?run⟩
  case run =>
    simp only [cc0__fused_kv_kernel_eq_skeleton]; unfold cc0__fused_kv_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST TILE (l = 3). The accumulator holds what the point before left; the body stores xs + K^T V, then copies the
    accumulator into the output block, which it was handed at anything. -/
noncomputable def runLast (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : atLast i)
    (x0 : Vec F S1x1024x1024 .f32) (x1 : Vec F S1024x1024 .bf16) (x2 : Vec F S1024x1024 .bf16) (xs : Vec F S1024x1024 .f32) :
    Σ' (LO : List (View.Piece (Elt F) S1x1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__fused_kv_kernel i arg2 harg2 arg3 harg3 arg4 harg4 arg5 harg5 arg6 harg6) K } := by
  refine ⟨?_, ?_, fun E K => ?run⟩
  case run =>
    simp only [cc0__fused_kv_kernel_eq_skeleton]; unfold cc0__fused_kv_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.BitsAccFrame.lean ====
/-
  The first kernel, point by point: what its accumulator and its output block hold after each grid point
  (a recursion on the point: cleared-then-added at a first tile, added to at a middle tile, added to and copied out at a
  last tile), the invariant that carries the accumulator's contents from one point to the next, the proof data of the
  pipeline, and the body obligation: at every point the body, run on the blocks the pipeline hands it, leaves exactly
  these contents.
-/
import proofs.«131122_j82566451298900_2_alg».proof.Proof.Gen.Kernel.Launch
import proofs.«131122_j82566451298900_2_alg».proof.Proof.Gen.Kernel.Skeleton
import proofs.«131122_j82566451298900_2_alg».proof.Proof.Gen.Kernel.Points
import proofs.«131122_j82566451298900_2_alg».proof.Proof.BitsAccRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the first kernel is entered
variable (V : (c : Dev nD) → (b : Ref sig .tc) → Buf (Elt F) ((c : Thread nD τ).loc b))

/-! ## The windows' blocks -/

/-- Window `w`'s block at point `t`, read off its array as the kernel finds it: the row tile (b, l) of X for window 0,
    the whole transposed weight matrices for windows 1 and 2, batch b's block of the result for window 3. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (a weight matrix is fetched
    once, its block index never moves), for any proof data whose array is the entry contents and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## What each case leaves -/

/-- The stores of a first tile into the accumulator cover it (each is the whole buffer). -/
theorem coverFirst (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : atFirst i) (hc1 : ¬atLast i) (x0 : Vec F S1x1024x1024 .f32) (x1 : Vec F S1024x1024 .bf16) (x2 : Vec F S1024x1024 .bf16) (y : S1024x1024.Idx) :
    ∃ pc ∈ (runFirst c i arg2 harg2 arg3 harg3 arg4 harg4 arg5 harg5 arg6 harg6 hc0 hc1 x0 x1 x2).1, y ∈ pc.1.set :=
  View.cover_of_tiledL (runFirst c i arg2 harg2 arg3 harg3 arg4 harg4 arg5 harg5 arg6 harg6 hc0 hc1 x0 x1 x2).1 S1024x1024.size (by sl_kernel_rfl) y
/-- What a first tile leaves in the accumulator: its stores read back. -/
def accFirst (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : atFirst i) (hc1 : ¬atLast i) (x0 : Vec F S1x1024x1024 .f32) (x1 : Vec F S1024x1024 .bf16) (x2 : Vec F S1024x1024 .bf16) : Vec F S1024x1024 .f32 :=
  accV.read (Elt F) (accV.writes (Elt F) accV.junk (runFirst c i arg2 harg2 arg3 harg3 arg4 harg4 arg5 harg5 arg6 harg6 hc0 hc1 x0 x1 x2).1)

theorem coverMiddle (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : ¬atLast i) (x0 : Vec F S1x1024x1024 .f32) (x1 : Vec F S1024x1024 .bf16) (x2 : Vec F S1024x1024 .bf16) (xs : Vec F S1024x1024 .f32) (y : S1024x1024.Idx) :
    ∃ pc ∈ (runMiddle c i arg2 harg2 arg3 harg3 arg4 harg4 arg5 harg5 arg6 harg6 hc0 hc1 x0 x1 x2 xs).1, y ∈ pc.1.set :=
  View.cover_of_tiledL (runMiddle c i arg2 harg2 arg3 harg3 arg4 harg4 arg5 harg5 arg6 harg6 hc0 hc1 x0 x1 x2 xs).1 S1024x1024.size (by sl_kernel_rfl) y
/-- What a middle tile leaves in the accumulator. -/
def accMiddle (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : ¬atLast i) (x0 : Vec F S1x1024x1024 .f32) (x1 : Vec F S1024x1024 .bf16) (x2 : Vec F S1024x1024 .bf16) (xs : Vec F S1024x1024 .f32) : Vec F S1024x1024 .f32 :=
  accV.read (Elt F) (accV.writes (Elt F) accV.junk (runMiddle c i arg2 harg2 arg3 harg3 arg4 harg4 arg5 harg5 arg6 harg6 hc0 hc1 x0 x1 x2 xs).1)

theorem coverLastAcc (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : atLast i) (x0 : Vec F S1x1024x1024 .f32) (x1 : Vec F S1024x1024 .bf16) (x2 : Vec F S1024x1024 .bf16) (xs : Vec F S1024x1024 .f32) (y : S1024x1024.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x1024.size (by sl_kernel_rfl) y
/-- What a last tile leaves in the accumulator. -/
def accLast (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : atLast i) (x0 : Vec F S1x1024x1024 .f32) (x1 : Vec F S1024x1024 .bf16) (x2 : Vec F S1024x1024 .bf16) (xs : Vec F S1024x1024 .f32) : Vec F S1024x1024 .f32 :=
  accV.read (Elt F) (accV.writes (Elt F) accV.junk (runLast c i arg2 harg2 arg3 harg3 arg4 harg4 arg5 harg5 arg6 harg6 hc0 hc1 x0 x1 x2 xs).2.1)
theorem coverLastOut (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : atLast i) (x0 : Vec F S1x1024x1024 .f32) (x1 : Vec F S1024x1024 .bf16) (x2 : Vec F S1024x1024 .bf16) (xs : Vec F S1024x1024 .f32) (y : S1x1024x1024.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1x1024x1024.size (by sl_kernel_rfl) y
/-- What a last tile leaves in the output block: the accumulator's final contents, as one 1 x 1024 x 1024 block. -/
def outLast (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : atLast i) (x0 : Vec F S1x1024x1024 .f32) (x1 : Vec F S1024x1024 .bf16) (x2 : Vec F S1024x1024 .bf16) (xs : Vec F S1024x1024 .f32) : Vec F S1x1024x1024 .f32 :=
  outV.read (Elt F) (outV.writes (Elt F) outV.junk (runLast c i arg2 harg2 arg3 harg3 arg4 harg4 arg5 harg5 arg6 harg6 hc0 hc1 x0 x1 x2 xs).1)
/-- Away from a last tile nothing is stored into the output block: a placeholder that nothing reads (the block is
    neither written back there nor read at the next point). -/
def outIdle : Vec F S1x1024x1024 .f32 := outV.read (Elt F) (outV.writes (Elt F) outV.junk [])

section Region0
variable (V : (c : Dev nD) → (b : Ref sig .tc) → Buf (Elt F) ((c : Thread nD τ).loc b))

/-! ## Point by point -/

/-- What the output block's buffer and the accumulator hold after the body at position `n`: the case the position's row
    tile selects, run on the point's blocks, the accumulator taken at what position `n - 1` left. -/
def outsAt0 (c : Dev nD) : (n : ℕ) → n < cfg0.N → Vec F S1x1024x1024 .f32 × Vec F S1024x1024 .f32
  | 0, hn => (outIdle, accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) accM (Memref.isWhole_whole _) ((atFirst_iff ⟨0, hn⟩).mpr (Nat.zero_mod _)) (fun h => (fun h => by (try dsimp only at h); omega) ((atLast_iff ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (outIdle, accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _) ((atFirst_iff ⟨n + 1, hn⟩).mpr h0) (fun h => h1 ((atLast_iff ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _) (fun h => h0 ((atFirst_iff ⟨n + 1, hn⟩).mp h)) ((atLast_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _) (fun h => h0 ((atFirst_iff ⟨n + 1, hn⟩).mp h)) ((atLast_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (outIdle, accMiddle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _) (fun h => h0 ((atFirst_iff ⟨n + 1, hn⟩).mp h)) (fun h => h1 ((atLast_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_first (c : Dev nD) (t : Fin cfg0.N) (h0 : t.val % 4 = 0) (h1 : ¬t.val % 4 = 3) :
    outsAt0 V c t.val t.isLt = (outIdle, accFirst c (grid0.coords t) (ms0_0 t) (hs0_0 t) (ms0_1 t) (hs0_1 t) (ms0_2 t) (hs0_2 t) (ms0_3 t) (hs0_3 t) accM (Memref.isWhole_whole _) ((atFirst_iff t).mpr h0) (fun h => h1 ((atLast_iff t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_middle (c : Dev nD) (t : Fin cfg0.N) (h0 : ¬t.val % 4 = 0) (h1 : ¬t.val % 4 = 3) :
    outsAt0 V c t.val t.isLt = (outIdle, accMiddle c (grid0.coords t) (ms0_0 t) (hs0_0 t) (ms0_1 t) (hs0_1 t) (ms0_2 t) (hs0_2 t) (ms0_3 t) (hs0_3 t) accM (Memref.isWhole_whole _) (fun h => h0 ((atFirst_iff t).mp h)) (fun h => h1 ((atLast_iff t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 4 = 0) (h1 : t.val % 4 = 3) :
    outsAt0 V c t.val t.isLt = (outLast c (grid0.coords t) (ms0_0 t) (hs0_0 t) (ms0_1 t) (hs0_1 t) (ms0_2 t) (hs0_2 t) (ms0_3 t) (hs0_3 t) accM (Memref.isWhole_whole _) (fun h => h0 ((atFirst_iff t).mp h)) ((atLast_iff t).mpr h1) (iblk0 V c 0 t) (iblk0 V c 1 t) (iblk0 V c 2 t) (outsAt0 V c (t.val - 1) (Nat.lt_of_le_of_lt (Nat.sub_le _ _) t.isLt)).2,
      accLast c (grid0.coords t) (ms0_0 t) (hs0_0 t) (ms0_1 t) (hs0_1 t) (ms0_2 t) (hs0_2 t) (ms0_3 t) (hs0_3 t) accM (Memref.isWhole_whole _) (fun h => h0 ((atFirst_iff t).mp h)) ((atLast_iff t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The kernel's invariant before position `n`: before the first point nothing is known of the accumulator; afterwards
    it holds what the point before left, beside the second kernel's buffers and the generator register. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt0 V c n hn).2) ∗ otherScoped (F := F) c) ∗ (∃ r, prngReg c r)) := rfl
theorem PhiS_pos (c : Dev nD) (n : ℕ) (h : n ≤ cfg0.N) (hz : n ≠ 0) :
    PhiS V c n h = iprop(iprop(owns (c : Thread nD τ) accM fullShare ((outsAt0 V c (n - 1) (by omega)).2) ∗ otherScoped (F := F) c) ∗ (∃ r, prngReg c r)) := by
  cases n with
  | zero => exact absurd rfl hz
  | succ n => rfl

/-! ## The pipeline's proof data -/

/-- The first kernel's proof data on core `c`: the arrays as it finds them; after the body each input's buffer at its
    block and the output's at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the row tile decides the case; the invariant hands the
    body the accumulator at what the point before left (at anything, before a first tile) and takes it back at this
    point's contents; away from a last tile the output block goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  by_cases h0 : t.val % 4 = 0
  · have h1 : ¬ t.val % 4 = 3 := by omega
    rw [Dat.leavesExact_idle (dat0 V c) 3 t (idle0_3 t (fun h => h1 ((atLast_iff t).mp h))) (noFlush0_3 t (fun h => h1 ((atLast_iff t).mp h)))]
    rw [outsAt0_first V c t h0 h1]
    unfold accFirst; (try dsimp only)
    rw [PhiS_castSucc V c t]
    have hΦ : PhiS V c t.val (Nat.le_of_lt t.isLt) ⊢ (iprop(iprop((∃ d, owns (c : Thread nD τ) accM fullShare d) ∗ otherScoped (F := F) c) ∗ (∃ r, prngReg c r)) : sProp 𝕄) := by
      by_cases hz : t.val = 0
      · rw [PhiS_zero V c _ _ hz, PhiA0_eq]
      · rw [PhiS_pos V c _ _ hz]
        iintro ⟨⟨HS, Ho⟩, Hg⟩
        isplitl [HS Ho]
        · isplitl [HS]; · iexists _; iexact HS
          iexact Ho
        iexact Hg
    iintro ⟨HΦ, Ho, ⟨%d0, H0⟩, ⟨%d1, H1⟩, ⟨%d2, H2⟩, ⟨%d3, H3⟩⟩
    ihave HΦ' := hΦ $$ HΦ
    icases HΦ' with ⟨⟨HS, Hoth⟩, Hg⟩
    iapply ((runFirst c (grid0.coords t) (ms0_0 t) (hs0_0 t) (ms0_1 t) (hs0_1 t) (ms0_2 t) (hs0_2 t) (ms0_3 t) (hs0_3 t) accM (Memref.isWhole_whole _) ((atFirst_iff t).mpr h0) (fun h => h1 ((atLast_iff t).mp h)) (iblk0 V c 0 t) (iblk0 V c 1 t) (iblk0 V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hoth Hg]
    · isplitl [HS Hoth]
      · isplitl [HS]
        · unfold owns; iexists _; isplitr
          swap; · iexact HS
          ipureintro; exact View.read_writes_of_cover _ _ _ _ _ (coverFirst c _ _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 4 = 3
    · rw [show (dat0 V c).leavesExact 3 t = owns (c : Thread nD τ) (ms0_3 t) fullShare ((dat0 V c).after 3 t) from by
        unfold Dat.leavesExact; rw [live0_3 t ((atLast_iff t).mpr h1)], after0_3]
      rw [outsAt0_last V c t h0 h1]
      unfold outLast accLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid0.coords t) (ms0_0 t) (hs0_0 t) (ms0_1 t) (hs0_1 t) (ms0_2 t) (hs0_2 t) (ms0_3 t) (hs0_3 t) accM (Memref.isWhole_whole _) (fun h => h0 ((atFirst_iff t).mp h)) ((atLast_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLastAcc c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · rw [Dat.leavesExact_idle (dat0 V c) 3 t (idle0_3 t (fun h => h1 ((atLast_iff t).mp h))) (noFlush0_3 t (fun h => h1 ((atLast_iff t).mp h)))]
      rw [outsAt0_middle V c t h0 h1]
      unfold accMiddle; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMiddle c (grid0.coords t) (ms0_0 t) (hs0_0 t) (ms0_1 t) (hs0_1 t) (ms0_2 t) (hs0_2 t) (ms0_3 t) (hs0_3 t) accM (Memref.isWhole_whole _) (fun h => h0 ((atFirst_iff t).mp h)) (fun h => h1 ((atLast_iff t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverMiddle c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The body obligation of the first kernel, at every point. -/
theorem body_obligation0 (c : Dev nD) : BodyObligation (dat0 (F := F) V c) (defs₀ (F := F)) Variants.none () Set.univ := fun t => by
  rw [bigSep_W0, bigSep_W0]
  exact sound_body0 V c t

/-- What the kernel is handed at its entry is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the entry's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS, Ho⟩, Hg⟩
  isplitl [HS Ho]
  · isplitl [HS]; · iexists _; iexact HS
    iexact Ho
  iexact Hg

end Region0

end Cert.Kernel.Hand

end
-- ==== Proof.BitsRegion1.lean ====
/- Region 1 of the kernel program as printed (the output kernel), at any float model `F`: what each of its four
   windows holds at a grid point, what the kernel body leaves in the output window's staging buffer as a closed
   function of the three input blocks, and the body's obligation towards the pipeline at every grid point.

   The grid is 4 × 4: point `(b, i)` is batch `b`, row tile `i`. Window 0 is the 1 × 1024 × 1024 tile `(b, i)` of the
   input `x` (rows `1024 i …` of batch `b`); window 1 is the whole 1024 × 1024 transposed query weight, in bf16;
   window 2 is the 1 × 1024 × 1024 block `b` of the accumulated `Kᵀ V`; window 3, the output, is tile `(b, i)` of the
   result. The body reads windows 0, 1, 2 whole and overwrites window 3 whole with
   `((x_tile · Wqᵀ) · KV_b) * c` — the payload `k1_pay1` of the three blocks. -/
import proofs.«131122_j82566451298900_2_alg».proof.Proof.Gen.Kernel.Launch
import proofs.«131122_j82566451298900_2_alg».proof.Proof.Gen.Kernel.Skeleton
import proofs.«131122_j82566451298900_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by a structural recursion one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter everything below is stated at
variable (V : (c : Dev nD) → (b : Ref sig .tc) → Buf (Elt F) ((c : Thread nD τ).loc b))

/-! ## The windows' blocks -/

/-- Window `w`'s block at point `t`: the part of its array, as the region finds it (`V`), that the window's index
    map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the tile of `x`) holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole transposed query weight) holds its block at every point, fetched there or not: its
    block index never moves, so the single fetch at the first point serves every later one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the batch's block of `Kᵀ V`) holds its block at every point, fetched there or not: within a
    batch the block index does not move, and the block fetched at the batch's first row tile is the later tiles'. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S1x1024x1024 := Rect.unit (s := S1x1024x1024) ![0, 0, 0] S1x1024x1024.size inb_S1x1024x1024_S1x1024x1024_0_0_0
abbrev r1_1 : Rect S1024x1024 := Rect.unit (s := S1024x1024) ![0, 0] S1024x1024.size inb_S1024x1024_S1024x1024_0_0

/-! ## What the body leaves in the output window's buffer -/

/-- Window 3's staging buffer after the body, from the three input blocks: its one store, of the whole buffer, with
    payload `((x0 · x1) · x2) * c` (`k1_pay1`). -/
def out1_3 (x0 : Vec F S1x1024x1024 .f32) (x1 : Vec F S1024x1024 .bf16) (x2 : Vec F S1x1024x1024 .f32) : Vec F S1x1024x1024 .f32 :=
  View.canon [⟨r1_0, k1_pay1 (View.ld x0 r1_0) (View.ld x1 r1_1) (View.ld x2 r1_0)⟩]

/-- The store's rectangle is the whole buffer, so it covers it. -/
theorem cover1_3 (p0 : Vec F S1x1024x1024 .f32) (y : S1x1024x1024.Idx) :
    ∃ pc ∈ ([⟨r1_0, p0⟩] : List (View.Piece (Elt F) S1x1024x1024 .f32)), y ∈ pc.1.set :=
  View.cover_of_tiled [⟨r1_0, p0⟩] S1x1024x1024.size (by rfl) y

/-! ## The body's triple -/

set_option maxHeartbeats 1000000 in
/-- The kernel body on whole staging memrefs, the three inputs' at read contents `x0 x1 x2` and the output's at
    anything, runs to the continuation holding the inputs' as they were and the output's at `out1_3 x0 x1 x2`: three
    whole loads, a load of the output buffer whose value is not used, and one whole store of the payload. -/
theorem sound_kernel1 (c : Dev nD) (E : Set ℕ) (i : grid1.Coords)
    (arg0 : Memref sig .tc .vmem S1x1024x1024 .f32) (harg0 : arg0.IsWhole) (arg1 : Memref sig .tc .vmem S1024x1024 .bf16) (harg1 : arg1.IsWhole)
    (arg2 : Memref sig .tc .vmem S1x1024x1024 .f32) (harg2 : arg2.IsWhole) (arg3 : Memref sig .tc .vmem S1x1024x1024 .f32) (harg3 : arg3.IsWhole)
    (x0 : Vec F S1x1024x1024 .f32) (x1 : Vec F S1024x1024 .bf16) (x2 : Vec F S1x1024x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__o_kernel i arg0 harg0 arg1 harg1 arg2 harg2 arg3 harg3) K := by
  simp only [cc1__o_kernel_eq_skeleton]; unfold cc1__o_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer still at its block and the output's at `out1_3` of the three input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's debts, and the four windows' current
    staging buffers, each at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.BitsRun.lean ====
/-
  The whole program as three segments: the host operations that transpose the three weight matrices, the first kernel
  (KV[b] = sum over the row tiles of K^T V) and the second kernel (O = ((X Wq^T) KV[b]) / 32). Between two segments every
  buffer outside the kernels' own holds named contents: the launch memory, then the host operations applied to it, then
  the first kernel's result array at what its write-backs leave, then the second's. Every fair run terminates, and at
  the end each such buffer holds the last of these contents; the argument arrays come back as launched.
-/
import proofs.«131122_j82566451298900_2_alg».proof.Proof.Gen.Kernel.Launch
import proofs.«131122_j82566451298900_2_alg».proof.Proof.Gen.Kernel.Skeleton
import proofs.«131122_j82566451298900_2_alg».proof.Proof.Gen.Kernel.Points
import proofs.«131122_j82566451298900_2_alg».proof.Proof.Gen.Kernel.Regions
import proofs.«131122_j82566451298900_2_alg».proof.Proof.BitsAccFrame
import proofs.«131122_j82566451298900_2_alg».proof.Proof.BitsRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the host operations (the three transposed weight matrices are now in place): the first kernel's entry. -/
abbrev W1 : Dev nD → Valuation τ sig (Elt F) := fun c => StableHlo.after hostOps0 (W0 m c)
abbrev E0 : (c : Dev nD) → (b : Ref sig .tc) → Buf (Elt F) ((c : Thread nD τ).loc b) := fun c b => W1 m c b
/-- After the first kernel: its result array at what the write-backs of the four last tiles leave, all else as entered. -/
def W2 (c : Dev nD) : Valuation τ sig (Elt F) :=
  Pipeline.withArrays spec0 c (W1 m c) fun w => (dat0 (E0 m) c).arrAt w cfg0.N
theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E1 : (c : Dev nD) → (b : Ref sig .tc) → Buf (Elt F) ((c : Thread nD τ).loc b) := fun c b => W2 m c b
theorem hF0 (c : Dev nD) (w : Fin cfg0.W) : (dat0 (E0 m) c).arrAt w cfg0.N = E1 m c (Pipeline.arrRef spec0 w) :=
  (W2_arr m c w).symm
theorem hrest0 (c : Dev nD) : ∀ b, b ∉ Finset.univ.image (Pipeline.arrRef spec0) → E1 m c b = E0 m c b :=
  fun b hb => W2_of_ne m c b fun w e => hb (Finset.mem_image.mpr ⟨w, Finset.mem_univ _, e⟩)

/-- After the second kernel: its result array at what its sixteen write-backs leave, all else as entered. -/
def W3 (c : Dev nD) : Valuation τ sig (Elt F) :=
  Pipeline.withArrays spec1 c (W2 m c) fun w => (dat1 (E1 m) c).arrAt w cfg1.N
theorem W3_arr (c : Dev nD) (w : Fin cfg1.W) :
    W3 m c (Proc.devRef .tc (Pipeline.arrRef spec1 w)) = (dat1 (E1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E2 : (c : Dev nD) → (b : Ref sig .tc) → Buf (Elt F) ((c : Thread nD τ).loc b) := fun c b => W3 m c b
theorem hF1 (c : Dev nD) (w : Fin cfg1.W) : (dat1 (E1 m) c).arrAt w cfg1.N = E2 m c (Pipeline.arrRef spec1 w) :=
  (W3_arr m c w).symm
theorem hrest1 (c : Dev nD) : ∀ b, b ∉ Finset.univ.image (Pipeline.arrRef spec1) → E2 m c b = E1 m c b :=
  fun b hb => W3_of_ne m c b fun w e => hb (Finset.mem_image.mpr ⟨w, Finset.mem_univ _, e⟩)

/-! ### The arguments end as launched -/

/-- X is an input window of both kernels: neither writes it, and no host operation does. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (E1 m) c).arrAt_in 0 rfl _).trans (A_eq1 (E1 m) c 0))
    _ = W1 m c (Proc.devRef .tc main_arg0) := (W2_arr m c 0).trans (((dat0 (E0 m) c).arrAt_in 0 rfl _).trans (A_eq0 (E0 m) c 0))
    _ = m ((c : Thread nD τ).loc main_arg0) := (V1_of m c main_arg0 (by decide)).trans rfl
/-- The weight matrices are no window of either kernel (the kernels read their transposes). -/
theorem W3_main_arg1 (c : Dev nD) : W3 m c (Proc.devRef .tc main_arg1) = m ((c : Thread nD τ).loc main_arg1) :=
  (W3_of_ne m c main_arg1 (by decide)).trans ((W2_of_ne m c main_arg1 (by decide)).trans ((V1_of m c main_arg1 (by decide)).trans rfl))
theorem W3_main_arg2 (c : Dev nD) : W3 m c (Proc.devRef .tc main_arg2) = m ((c : Thread nD τ).loc main_arg2) :=
  (W3_of_ne m c main_arg2 (by decide)).trans ((W2_of_ne m c main_arg2 (by decide)).trans ((V1_of m c main_arg2 (by decide)).trans rfl))
theorem W3_main_arg3 (c : Dev nD) : W3 m c (Proc.devRef .tc main_arg3) = m ((c : Thread nD τ).loc main_arg3) :=
  (W3_of_ne m c main_arg3 (by decide)).trans ((W2_of_ne m c main_arg3 (by decide)).trans ((V1_of m c main_arg3 (by decide)).trans rfl))

/-! ## The proof data family and the thread state -/

abbrev adm' : (p : Fin 2) → (pcfgs (F := F) p).Adm := fun p => (cfgs p).toPCfg_adm
/-- Both kernels' proof data, each at its entry contents. -/
def pdats : (p : Fin 2) → (c : Dev nD) → Dat τ (Elt F) Unit ℕ (UR sig nD τ) ℕ (Pipeline.pin (pcfgs (F := F)) adm' p) c
  | ⟨0, _⟩ => fun c => dat0 (E0 m) c
  | ⟨1, _⟩ => fun c => dat1 (E1 m) c
abbrev 𝒱' : Variants := Variants.none
abbrev L' : GSem nD τ sig → Finset Unit := fun _ => ∅
abbrev lv' : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- THE FIRST KERNEL over the thread state: entered with every buffer outside the kernels at `W1`, left at `W2`. -/
def reg0 : Pipeline.RegionSeg (pcfgs (F := F)) adm' (pdats m) () defs₀ 𝒱' L' lv' 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L' lv' 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E0 m) c)
    unfold Pipeline.ΦA
    iintro ⟨Hp, -, Hr⟩
    isplitl [Hr]; · iexact Hr
    iexact Hp
  hout c := by
    rw [Pipeline.ownSems0_none]
    refine (hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND KERNEL over the thread state: entered at `W2` (no host operation stands between the two kernels), left at
    `W3`, which the end of the run reads. -/
def reg1 : Pipeline.RegionSeg (pcfgs (F := F)) adm' (pdats m) () defs₀ 𝒱' L' lv' 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L' lv' 1 fun _ _ => rfl
  pre c := iprop(StableHlo.held (c : Thread nD τ) (Pipeline.ucRefs τ sig) (W2 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm' (pdats m) () defs₀ 𝒱' L' lv') :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing faulting,
    and at the end every buffer outside the kernels' own holds the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm' (pdats m) () cellOf_inj emb₁ defs₀ 𝒱' L' lv' m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Hand

end
-- ==== Proof.IdealAccRuns.lean ====
/-
  The first kernel of the program, at its sixteen grid points (b, l), b the batch and l the row tile of X:
  it keeps a 1024 x 1024 accumulator between points, clears it where l = 0, adds the tile's product
  K_l^T V_l at every point, and copies the accumulator into the output block of batch b where l = 3.
  This module decides the two branch conditions over the grid, says where the output window is left
  untouched, and runs the body in each of the three cases that the grid meets:
  first tile (clear, then add), middle tile (add), last tile (add, then copy out).
-/
import proofs.«131122_j82566451298900_2_alg».proof.Proof.Gen.KernelIdeal.Launch
import proofs.«131122_j82566451298900_2_alg».proof.Proof.Gen.KernelIdeal.Skeleton
import proofs.«131122_j82566451298900_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The body clears the accumulator: the row-tile coordinate is 0. -/
abbrev atFirst (i : grid0.Coords) : Prop :=
  (Scalar.cmpi .ne (Scalar.extui (Scalar.cmpi .eq (BitVec.ofNat 32 (i 1).val) 0#32)) 0#32) = 1#1
/-- The points with row-tile coordinate 0 are the points 0, 4, 8, 12. -/
theorem atFirst_iff : ∀ t : Fin cfg0.N, atFirst (grid0.coords t) ↔ t.val % 4 = 0 :=
  (by decide +kernel : ∀ t : Fin grid0.N, atFirst (grid0.coords t) ↔ t.val % 4 = 0)

/-- The body copies the accumulator out: the row-tile coordinate is 3. -/
abbrev atLast (i : grid0.Coords) : Prop := k0_cond2 i = 1#1
/-- The points with row-tile coordinate 3 are the points 3, 7, 11, 15. -/
theorem atLast_iff : ∀ t : Fin cfg0.N, atLast (grid0.coords t) ↔ t.val % 4 = 3 :=
  (by decide +kernel : ∀ t : Fin grid0.N, atLast (grid0.coords t) ↔ t.val % 4 = 3)

/-! ## Where the output window is left untouched -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last row tile the body stores nothing into the output block, -/
theorem idle0_3 : ∀ t : Fin cfg0.N, ¬atLast (grid0.coords t) → cfg0.idle 3 (grid0.coords t) = true := by decide +kernel
/-- and the block is not written back there; -/
theorem noFlush0_3 : ∀ t : Fin cfg0.N, ¬atLast (grid0.coords t) → (cfg0.win 3).flush t = false := by decide +kernel
/-- at the last row tile it stores the whole block. -/
theorem live0_3 : ∀ t : Fin cfg0.N, atLast (grid0.coords t) → cfg0.idle 3 (grid0.coords t) = false := by decide +kernel

/-! ## The memrefs the body is called with -/

abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
/-- The accumulator: a whole buffer of the kernel's own. -/
abbrev accM : Memref sig .tc .vmem S1024x1024 .f32 := Memref.whole cc0_scratch0
/-- The views through which the accumulator's and the output block's contents are stated. -/
abbrev accV : View sig .tc .vmem S1024x1024 .f32 := accM.view
abbrev outV : View sig .tc .vmem S1x1024x1024 .f32 := (Memref.whole cc0_stg3_0 : Memref sig .tc .vmem S1x1024x1024 .f32).view

/-- The buffers of the core that belong to the second kernel, each at some contents: the first kernel never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- Before the first point the kernel may assume nothing of the accumulator: it is owned at some contents, beside the
    second kernel's buffers and the generator register. -/
theorem PhiA0_eq (c : Dev nD) :
    (Pipeline.ΦA spec0 c : sProp 𝕄)
      = iprop(iprop((∃ d, owns (c : Thread nD τ) accM fullShare d) ∗ otherScoped (F := F) c) ∗ (∃ r, prngReg c r)) := by
  unfold Pipeline.ΦA otherScoped; rw [scopedRest0_eq]; simp only [accM, owns_whole]; try rfl

/-! ## The body in each case -/

set_option maxHeartbeats 1000000 in
/-- FIRST TILE (l = 0). The accumulator holds anything; the body stores zeros into it, loads the three input blocks,
    and stores zeros + K^T V. The output block is handed back as found. The value is the list of stores
    into the accumulator, last first. -/
noncomputable def runFirst (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : atFirst i) (hc1 : ¬atLast i)
    (x0 : Vec F S1x1024x1024 .f32) (x1 : Vec F S1024x1024 .bf16) (x2 : Vec F S1024x1024 .bf16) :
    { LS : List (View.Piece (Elt F) S1024x1024 .f32) //
      ∀ (xi : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__fused_kv_kernel i arg2 harg2 arg3 harg3 arg4 harg4 arg5 harg5 arg6 harg6) K } := by
  refine ⟨?_, fun xi E K => ?run⟩
  case run =>
    simp only [cc0__fused_kv_kernel_eq_skeleton]; unfold cc0__fused_kv_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- MIDDLE TILE (l = 1, 2). The accumulator holds what the point before left (`xs`); the body stores xs + K^T V.
    The output block is handed back as found. -/
noncomputable def runMiddle (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : ¬atLast i)
    (x0 : Vec F S1x1024x1024 .f32) (x1 : Vec F S1024x1024 .bf16) (x2 : Vec F S1024x1024 .bf16) (xs : Vec F S1024x1024 .f32) :
    { LS : List (View.Piece (Elt F) S1024x1024 .f32) //
      ∀ (xi : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__fused_kv_kernel i arg2 harg2 arg3 harg3 arg4 harg4 arg5 harg5 arg6 harg6) K } := by
  refine ⟨?_, fun xi E K => ?run⟩
  case run =>
    simp only [cc0__fused_kv_kernel_eq_skeleton]; unfold cc0__fused_kv_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- LAST TILE (l = 3). The accumulator holds what the point before left; the body stores xs + K^T V, then copies the
    accumulator into the output block, which it was handed at anything. -/
noncomputable def runLast (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : atLast i)
    (x0 : Vec F S1x1024x1024 .f32) (x1 : Vec F S1024x1024 .bf16) (x2 : Vec F S1024x1024 .bf16) (xs : Vec F S1024x1024 .f32) :
    Σ' (LO : List (View.Piece (Elt F) S1x1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__fused_kv_kernel i arg2 harg2 arg3 harg3 arg4 harg4 arg5 harg5 arg6 harg6) K } := by
  refine ⟨?_, ?_, fun E K => ?run⟩
  case run =>
    simp only [cc0__fused_kv_kernel_eq_skeleton]; unfold cc0__fused_kv_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.IdealAccFrame.lean ====
/-
  The first kernel, point by point: what its accumulator and its output block hold after each grid point
  (a recursion on the point: cleared-then-added at a first tile, added to at a middle tile, added to and copied out at a
  last tile), the invariant that carries the accumulator's contents from one point to the next, the proof data of the
  pipeline, and the body obligation: at every point the body, run on the blocks the pipeline hands it, leaves exactly
  these contents.
-/
import proofs.«131122_j82566451298900_2_alg».proof.Proof.Gen.KernelIdeal.Launch
import proofs.«131122_j82566451298900_2_alg».proof.Proof.Gen.KernelIdeal.Skeleton
import proofs.«131122_j82566451298900_2_alg».proof.Proof.Gen.KernelIdeal.Points
import proofs.«131122_j82566451298900_2_alg».proof.Proof.IdealAccRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the first kernel is entered
variable (V : (c : Dev nD) → (b : Ref sig .tc) → Buf (Elt F) ((c : Thread nD τ).loc b))

/-! ## The windows' blocks -/

/-- Window `w`'s block at point `t`, read off its array as the kernel finds it: the row tile (b, l) of X for window 0,
    the whole transposed weight matrices for windows 1 and 2, batch b's block of the result for window 3. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (a weight matrix is fetched
    once, its block index never moves), for any proof data whose array is the entry contents and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## What each case leaves -/

/-- The stores of a first tile into the accumulator cover it (each is the whole buffer). -/
theorem coverFirst (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : atFirst i) (hc1 : ¬atLast i) (x0 : Vec F S1x1024x1024 .f32) (x1 : Vec F S1024x1024 .bf16) (x2 : Vec F S1024x1024 .bf16) (y : S1024x1024.Idx) :
    ∃ pc ∈ (runFirst c i arg2 harg2 arg3 harg3 arg4 harg4 arg5 harg5 arg6 harg6 hc0 hc1 x0 x1 x2).1, y ∈ pc.1.set :=
  View.cover_of_tiledL (runFirst c i arg2 harg2 arg3 harg3 arg4 harg4 arg5 harg5 arg6 harg6 hc0 hc1 x0 x1 x2).1 S1024x1024.size (by sl_kernel_rfl) y
/-- What a first tile leaves in the accumulator: its stores read back. -/
def accFirst (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : atFirst i) (hc1 : ¬atLast i) (x0 : Vec F S1x1024x1024 .f32) (x1 : Vec F S1024x1024 .bf16) (x2 : Vec F S1024x1024 .bf16) : Vec F S1024x1024 .f32 :=
  accV.read (Elt F) (accV.writes (Elt F) accV.junk (runFirst c i arg2 harg2 arg3 harg3 arg4 harg4 arg5 harg5 arg6 harg6 hc0 hc1 x0 x1 x2).1)

theorem coverMiddle (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : ¬atLast i) (x0 : Vec F S1x1024x1024 .f32) (x1 : Vec F S1024x1024 .bf16) (x2 : Vec F S1024x1024 .bf16) (xs : Vec F S1024x1024 .f32) (y : S1024x1024.Idx) :
    ∃ pc ∈ (runMiddle c i arg2 harg2 arg3 harg3 arg4 harg4 arg5 harg5 arg6 harg6 hc0 hc1 x0 x1 x2 xs).1, y ∈ pc.1.set :=
  View.cover_of_tiledL (runMiddle c i arg2 harg2 arg3 harg3 arg4 harg4 arg5 harg5 arg6 harg6 hc0 hc1 x0 x1 x2 xs).1 S1024x1024.size (by sl_kernel_rfl) y
/-- What a middle tile leaves in the accumulator. -/
def accMiddle (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : ¬atLast i) (x0 : Vec F S1x1024x1024 .f32) (x1 : Vec F S1024x1024 .bf16) (x2 : Vec F S1024x1024 .bf16) (xs : Vec F S1024x1024 .f32) : Vec F S1024x1024 .f32 :=
  accV.read (Elt F) (accV.writes (Elt F) accV.junk (runMiddle c i arg2 harg2 arg3 harg3 arg4 harg4 arg5 harg5 arg6 harg6 hc0 hc1 x0 x1 x2 xs).1)

theorem coverLastAcc (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : atLast i) (x0 : Vec F S1x1024x1024 .f32) (x1 : Vec F S1024x1024 .bf16) (x2 : Vec F S1024x1024 .bf16) (xs : Vec F S1024x1024 .f32) (y : S1024x1024.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x1024.size (by sl_kernel_rfl) y
/-- What a last tile leaves in the accumulator. -/
def accLast (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : atLast i) (x0 : Vec F S1x1024x1024 .f32) (x1 : Vec F S1024x1024 .bf16) (x2 : Vec F S1024x1024 .bf16) (xs : Vec F S1024x1024 .f32) : Vec F S1024x1024 .f32 :=
  accV.read (Elt F) (accV.writes (Elt F) accV.junk (runLast c i arg2 harg2 arg3 harg3 arg4 harg4 arg5 harg5 arg6 harg6 hc0 hc1 x0 x1 x2 xs).2.1)
theorem coverLastOut (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : atLast i) (x0 : Vec F S1x1024x1024 .f32) (x1 : Vec F S1024x1024 .bf16) (x2 : Vec F S1024x1024 .bf16) (xs : Vec F S1024x1024 .f32) (y : S1x1024x1024.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1x1024x1024.size (by sl_kernel_rfl) y
/-- What a last tile leaves in the output block: the accumulator's final contents, as one 1 x 1024 x 1024 block. -/
def outLast (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : atLast i) (x0 : Vec F S1x1024x1024 .f32) (x1 : Vec F S1024x1024 .bf16) (x2 : Vec F S1024x1024 .bf16) (xs : Vec F S1024x1024 .f32) : Vec F S1x1024x1024 .f32 :=
  outV.read (Elt F) (outV.writes (Elt F) outV.junk (runLast c i arg2 harg2 arg3 harg3 arg4 harg4 arg5 harg5 arg6 harg6 hc0 hc1 x0 x1 x2 xs).1)
/-- Away from a last tile nothing is stored into the output block: a placeholder that nothing reads (the block is
    neither written back there nor read at the next point). -/
def outIdle : Vec F S1x1024x1024 .f32 := outV.read (Elt F) (outV.writes (Elt F) outV.junk [])

section Region0
variable (V : (c : Dev nD) → (b : Ref sig .tc) → Buf (Elt F) ((c : Thread nD τ).loc b))

/-! ## Point by point -/

/-- What the output block's buffer and the accumulator hold after the body at position `n`: the case the position's row
    tile selects, run on the point's blocks, the accumulator taken at what position `n - 1` left. -/
def outsAt0 (c : Dev nD) : (n : ℕ) → n < cfg0.N → Vec F S1x1024x1024 .f32 × Vec F S1024x1024 .f32
  | 0, hn => (outIdle, accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) accM (Memref.isWhole_whole _) ((atFirst_iff ⟨0, hn⟩).mpr (Nat.zero_mod _)) (fun h => (fun h => by (try dsimp only at h); omega) ((atLast_iff ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (outIdle, accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _) ((atFirst_iff ⟨n + 1, hn⟩).mpr h0) (fun h => h1 ((atLast_iff ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _) (fun h => h0 ((atFirst_iff ⟨n + 1, hn⟩).mp h)) ((atLast_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _) (fun h => h0 ((atFirst_iff ⟨n + 1, hn⟩).mp h)) ((atLast_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (outIdle, accMiddle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _) (fun h => h0 ((atFirst_iff ⟨n + 1, hn⟩).mp h)) (fun h => h1 ((atLast_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_first (c : Dev nD) (t : Fin cfg0.N) (h0 : t.val % 4 = 0) (h1 : ¬t.val % 4 = 3) :
    outsAt0 V c t.val t.isLt = (outIdle, accFirst c (grid0.coords t) (ms0_0 t) (hs0_0 t) (ms0_1 t) (hs0_1 t) (ms0_2 t) (hs0_2 t) (ms0_3 t) (hs0_3 t) accM (Memref.isWhole_whole _) ((atFirst_iff t).mpr h0) (fun h => h1 ((atLast_iff t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_middle (c : Dev nD) (t : Fin cfg0.N) (h0 : ¬t.val % 4 = 0) (h1 : ¬t.val % 4 = 3) :
    outsAt0 V c t.val t.isLt = (outIdle, accMiddle c (grid0.coords t) (ms0_0 t) (hs0_0 t) (ms0_1 t) (hs0_1 t) (ms0_2 t) (hs0_2 t) (ms0_3 t) (hs0_3 t) accM (Memref.isWhole_whole _) (fun h => h0 ((atFirst_iff t).mp h)) (fun h => h1 ((atLast_iff t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 4 = 0) (h1 : t.val % 4 = 3) :
    outsAt0 V c t.val t.isLt = (outLast c (grid0.coords t) (ms0_0 t) (hs0_0 t) (ms0_1 t) (hs0_1 t) (ms0_2 t) (hs0_2 t) (ms0_3 t) (hs0_3 t) accM (Memref.isWhole_whole _) (fun h => h0 ((atFirst_iff t).mp h)) ((atLast_iff t).mpr h1) (iblk0 V c 0 t) (iblk0 V c 1 t) (iblk0 V c 2 t) (outsAt0 V c (t.val - 1) (Nat.lt_of_le_of_lt (Nat.sub_le _ _) t.isLt)).2,
      accLast c (grid0.coords t) (ms0_0 t) (hs0_0 t) (ms0_1 t) (hs0_1 t) (ms0_2 t) (hs0_2 t) (ms0_3 t) (hs0_3 t) accM (Memref.isWhole_whole _) (fun h => h0 ((atFirst_iff t).mp h)) ((atLast_iff t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The kernel's invariant before position `n`: before the first point nothing is known of the accumulator; afterwards
    it holds what the point before left, beside the second kernel's buffers and the generator register. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt0 V c n hn).2) ∗ otherScoped (F := F) c) ∗ (∃ r, prngReg c r)) := rfl
theorem PhiS_pos (c : Dev nD) (n : ℕ) (h : n ≤ cfg0.N) (hz : n ≠ 0) :
    PhiS V c n h = iprop(iprop(owns (c : Thread nD τ) accM fullShare ((outsAt0 V c (n - 1) (by omega)).2) ∗ otherScoped (F := F) c) ∗ (∃ r, prngReg c r)) := by
  cases n with
  | zero => exact absurd rfl hz
  | succ n => rfl

/-! ## The pipeline's proof data -/

/-- The first kernel's proof data on core `c`: the arrays as it finds them; after the body each input's buffer at its
    block and the output's at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the row tile decides the case; the invariant hands the
    body the accumulator at what the point before left (at anything, before a first tile) and takes it back at this
    point's contents; away from a last tile the output block goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  by_cases h0 : t.val % 4 = 0
  · have h1 : ¬ t.val % 4 = 3 := by omega
    rw [Dat.leavesExact_idle (dat0 V c) 3 t (idle0_3 t (fun h => h1 ((atLast_iff t).mp h))) (noFlush0_3 t (fun h => h1 ((atLast_iff t).mp h)))]
    rw [outsAt0_first V c t h0 h1]
    unfold accFirst; (try dsimp only)
    rw [PhiS_castSucc V c t]
    have hΦ : PhiS V c t.val (Nat.le_of_lt t.isLt) ⊢ (iprop(iprop((∃ d, owns (c : Thread nD τ) accM fullShare d) ∗ otherScoped (F := F) c) ∗ (∃ r, prngReg c r)) : sProp 𝕄) := by
      by_cases hz : t.val = 0
      · rw [PhiS_zero V c _ _ hz, PhiA0_eq]
      · rw [PhiS_pos V c _ _ hz]
        iintro ⟨⟨HS, Ho⟩, Hg⟩
        isplitl [HS Ho]
        · isplitl [HS]; · iexists _; iexact HS
          iexact Ho
        iexact Hg
    iintro ⟨HΦ, Ho, ⟨%d0, H0⟩, ⟨%d1, H1⟩, ⟨%d2, H2⟩, ⟨%d3, H3⟩⟩
    ihave HΦ' := hΦ $$ HΦ
    icases HΦ' with ⟨⟨HS, Hoth⟩, Hg⟩
    iapply ((runFirst c (grid0.coords t) (ms0_0 t) (hs0_0 t) (ms0_1 t) (hs0_1 t) (ms0_2 t) (hs0_2 t) (ms0_3 t) (hs0_3 t) accM (Memref.isWhole_whole _) ((atFirst_iff t).mpr h0) (fun h => h1 ((atLast_iff t).mp h)) (iblk0 V c 0 t) (iblk0 V c 1 t) (iblk0 V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hoth Hg]
    · isplitl [HS Hoth]
      · isplitl [HS]
        · unfold owns; iexists _; isplitr
          swap; · iexact HS
          ipureintro; exact View.read_writes_of_cover _ _ _ _ _ (coverFirst c _ _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 4 = 3
    · rw [show (dat0 V c).leavesExact 3 t = owns (c : Thread nD τ) (ms0_3 t) fullShare ((dat0 V c).after 3 t) from by
        unfold Dat.leavesExact; rw [live0_3 t ((atLast_iff t).mpr h1)], after0_3]
      rw [outsAt0_last V c t h0 h1]
      unfold outLast accLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid0.coords t) (ms0_0 t) (hs0_0 t) (ms0_1 t) (hs0_1 t) (ms0_2 t) (hs0_2 t) (ms0_3 t) (hs0_3 t) accM (Memref.isWhole_whole _) (fun h => h0 ((atFirst_iff t).mp h)) ((atLast_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLastAcc c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · rw [Dat.leavesExact_idle (dat0 V c) 3 t (idle0_3 t (fun h => h1 ((atLast_iff t).mp h))) (noFlush0_3 t (fun h => h1 ((atLast_iff t).mp h)))]
      rw [outsAt0_middle V c t h0 h1]
      unfold accMiddle; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMiddle c (grid0.coords t) (ms0_0 t) (hs0_0 t) (ms0_1 t) (hs0_1 t) (ms0_2 t) (hs0_2 t) (ms0_3 t) (hs0_3 t) accM (Memref.isWhole_whole _) (fun h => h0 ((atFirst_iff t).mp h)) (fun h => h1 ((atLast_iff t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverMiddle c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The body obligation of the first kernel, at every point. -/
theorem body_obligation0 (c : Dev nD) : BodyObligation (dat0 (F := F) V c) (defs₀ (F := F)) Variants.none () Set.univ := fun t => by
  rw [bigSep_W0, bigSep_W0]
  exact sound_body0 V c t

/-- What the kernel is handed at its entry is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the entry's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS, Ho⟩, Hg⟩
  isplitl [HS Ho]
  · isplitl [HS]; · iexists _; iexact HS
    iexact Ho
  iexact Hg

end Region0

end Cert.KernelIdeal.Hand

end
-- ==== Proof.IdealRegion1.lean ====
/- Region 1 of the idealized kernel program (the output kernel), at any float model `F`: what each of its four
   windows holds at a grid point, what the kernel body leaves in the output window's staging buffer as a closed
   function of the three input blocks, and the body's obligation towards the pipeline at every grid point.

   The grid is 4 × 4: point `(b, i)` is batch `b`, row tile `i`. Window 0 is the 1 × 1024 × 1024 tile `(b, i)` of the
   input `x` (rows `1024 i …` of batch `b`); window 1 is the whole 1024 × 1024 transposed query weight, in bf16;
   window 2 is the 1 × 1024 × 1024 block `b` of the accumulated `Kᵀ V`; window 3, the output, is tile `(b, i)` of the
   result. The body reads windows 0, 1, 2 whole and overwrites window 3 whole with
   `((x_tile · Wqᵀ) · KV_b) * c` — the payload `k1_pay1` of the three blocks. -/
import proofs.«131122_j82566451298900_2_alg».proof.Proof.Gen.KernelIdeal.Launch
import proofs.«131122_j82566451298900_2_alg».proof.Proof.Gen.KernelIdeal.Skeleton
import proofs.«131122_j82566451298900_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by a structural recursion one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter everything below is stated at
variable (V : (c : Dev nD) → (b : Ref sig .tc) → Buf (Elt F) ((c : Thread nD τ).loc b))

/-! ## The windows' blocks -/

/-- Window `w`'s block at point `t`: the part of its array, as the region finds it (`V`), that the window's index
    map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the tile of `x`) holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole transposed query weight) holds its block at every point, fetched there or not: its
    block index never moves, so the single fetch at the first point serves every later one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the batch's block of `Kᵀ V`) holds its block at every point, fetched there or not: within a
    batch the block index does not move, and the block fetched at the batch's first row tile is the later tiles'. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S1x1024x1024 := Rect.unit (s := S1x1024x1024) ![0, 0, 0] S1x1024x1024.size inb_S1x1024x1024_S1x1024x1024_0_0_0
abbrev r1_1 : Rect S1024x1024 := Rect.unit (s := S1024x1024) ![0, 0] S1024x1024.size inb_S1024x1024_S1024x1024_0_0

/-! ## What the body leaves in the output window's buffer -/

/-- Window 3's staging buffer after the body, from the three input blocks: its one store, of the whole buffer, with
    payload `((x0 · x1) · x2) * c` (`k1_pay1`). -/
def out1_3 (x0 : Vec F S1x1024x1024 .f32) (x1 : Vec F S1024x1024 .bf16) (x2 : Vec F S1x1024x1024 .f32) : Vec F S1x1024x1024 .f32 :=
  View.canon [⟨r1_0, k1_pay1 (View.ld x0 r1_0) (View.ld x1 r1_1) (View.ld x2 r1_0)⟩]

/-- The store's rectangle is the whole buffer, so it covers it. -/
theorem cover1_3 (p0 : Vec F S1x1024x1024 .f32) (y : S1x1024x1024.Idx) :
    ∃ pc ∈ ([⟨r1_0, p0⟩] : List (View.Piece (Elt F) S1x1024x1024 .f32)), y ∈ pc.1.set :=
  View.cover_of_tiled [⟨r1_0, p0⟩] S1x1024x1024.size (by rfl) y

/-! ## The body's triple -/

set_option maxHeartbeats 1000000 in
/-- The kernel body on whole staging memrefs, the three inputs' at read contents `x0 x1 x2` and the output's at
    anything, runs to the continuation holding the inputs' as they were and the output's at `out1_3 x0 x1 x2`: three
    whole loads, a load of the output buffer whose value is not used, and one whole store of the payload. -/
theorem sound_kernel1 (c : Dev nD) (E : Set ℕ) (i : grid1.Coords)
    (arg0 : Memref sig .tc .vmem S1x1024x1024 .f32) (harg0 : arg0.IsWhole) (arg1 : Memref sig .tc .vmem S1024x1024 .bf16) (harg1 : arg1.IsWhole)
    (arg2 : Memref sig .tc .vmem S1x1024x1024 .f32) (harg2 : arg2.IsWhole) (arg3 : Memref sig .tc .vmem S1x1024x1024 .f32) (harg3 : arg3.IsWhole)
    (x0 : Vec F S1x1024x1024 .f32) (x1 : Vec F S1024x1024 .bf16) (x2 : Vec F S1x1024x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__o_kernel i arg0 harg0 arg1 harg1 arg2 harg2 arg3 harg3) K := by
  simp only [cc1__o_kernel_eq_skeleton]; unfold cc1__o_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer still at its block and the output's at `out1_3` of the three input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's debts, and the four windows' current
    staging buffers, each at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.IdealRun.lean ====
/-
  The whole program as three segments: the host operations that transpose the three weight matrices, the first kernel
  (KV[b] = sum over the row tiles of K^T V) and the second kernel (O = ((X Wq^T) KV[b]) / 32). Between two segments every
  buffer outside the kernels' own holds named contents: the launch memory, then the host operations applied to it, then
  the first kernel's result array at what its write-backs leave, then the second's. Every fair run terminates, and at
  the end each such buffer holds the last of these contents; the argument arrays come back as launched.
-/
import proofs.«131122_j82566451298900_2_alg».proof.Proof.Gen.KernelIdeal.Launch
import proofs.«131122_j82566451298900_2_alg».proof.Proof.Gen.KernelIdeal.Skeleton
import proofs.«131122_j82566451298900_2_alg».proof.Proof.Gen.KernelIdeal.Points
import proofs.«131122_j82566451298900_2_alg».proof.Proof.Gen.KernelIdeal.Regions
import proofs.«131122_j82566451298900_2_alg».proof.Proof.IdealAccFrame
import proofs.«131122_j82566451298900_2_alg».proof.Proof.IdealRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the host operations (the three transposed weight matrices are now in place): the first kernel's entry. -/
abbrev W1 : Dev nD → Valuation τ sig (Elt F) := fun c => StableHlo.after hostOps0 (W0 m c)
abbrev E0 : (c : Dev nD) → (b : Ref sig .tc) → Buf (Elt F) ((c : Thread nD τ).loc b) := fun c b => W1 m c b
/-- After the first kernel: its result array at what the write-backs of the four last tiles leave, all else as entered. -/
def W2 (c : Dev nD) : Valuation τ sig (Elt F) :=
  Pipeline.withArrays spec0 c (W1 m c) fun w => (dat0 (E0 m) c).arrAt w cfg0.N
theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E1 : (c : Dev nD) → (b : Ref sig .tc) → Buf (Elt F) ((c : Thread nD τ).loc b) := fun c b => W2 m c b
theorem hF0 (c : Dev nD) (w : Fin cfg0.W) : (dat0 (E0 m) c).arrAt w cfg0.N = E1 m c (Pipeline.arrRef spec0 w) :=
  (W2_arr m c w).symm
theorem hrest0 (c : Dev nD) : ∀ b, b ∉ Finset.univ.image (Pipeline.arrRef spec0) → E1 m c b = E0 m c b :=
  fun b hb => W2_of_ne m c b fun w e => hb (Finset.mem_image.mpr ⟨w, Finset.mem_univ _, e⟩)

/-- After the second kernel: its result array at what its sixteen write-backs leave, all else as entered. -/
def W3 (c : Dev nD) : Valuation τ sig (Elt F) :=
  Pipeline.withArrays spec1 c (W2 m c) fun w => (dat1 (E1 m) c).arrAt w cfg1.N
theorem W3_arr (c : Dev nD) (w : Fin cfg1.W) :
    W3 m c (Proc.devRef .tc (Pipeline.arrRef spec1 w)) = (dat1 (E1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E2 : (c : Dev nD) → (b : Ref sig .tc) → Buf (Elt F) ((c : Thread nD τ).loc b) := fun c b => W3 m c b
theorem hF1 (c : Dev nD) (w : Fin cfg1.W) : (dat1 (E1 m) c).arrAt w cfg1.N = E2 m c (Pipeline.arrRef spec1 w) :=
  (W3_arr m c w).symm
theorem hrest1 (c : Dev nD) : ∀ b, b ∉ Finset.univ.image (Pipeline.arrRef spec1) → E2 m c b = E1 m c b :=
  fun b hb => W3_of_ne m c b fun w e => hb (Finset.mem_image.mpr ⟨w, Finset.mem_univ _, e⟩)

/-! ### The arguments end as launched -/

/-- X is an input window of both kernels: neither writes it, and no host operation does. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (E1 m) c).arrAt_in 0 rfl _).trans (A_eq1 (E1 m) c 0))
    _ = W1 m c (Proc.devRef .tc main_arg0) := (W2_arr m c 0).trans (((dat0 (E0 m) c).arrAt_in 0 rfl _).trans (A_eq0 (E0 m) c 0))
    _ = m ((c : Thread nD τ).loc main_arg0) := (V1_of m c main_arg0 (by decide)).trans rfl
/-- The weight matrices are no window of either kernel (the kernels read their transposes). -/
theorem W3_main_arg1 (c : Dev nD) : W3 m c (Proc.devRef .tc main_arg1) = m ((c : Thread nD τ).loc main_arg1) :=
  (W3_of_ne m c main_arg1 (by decide)).trans ((W2_of_ne m c main_arg1 (by decide)).trans ((V1_of m c main_arg1 (by decide)).trans rfl))
theorem W3_main_arg2 (c : Dev nD) : W3 m c (Proc.devRef .tc main_arg2) = m ((c : Thread nD τ).loc main_arg2) :=
  (W3_of_ne m c main_arg2 (by decide)).trans ((W2_of_ne m c main_arg2 (by decide)).trans ((V1_of m c main_arg2 (by decide)).trans rfl))
theorem W3_main_arg3 (c : Dev nD) : W3 m c (Proc.devRef .tc main_arg3) = m ((c : Thread nD τ).loc main_arg3) :=
  (W3_of_ne m c main_arg3 (by decide)).trans ((W2_of_ne m c main_arg3 (by decide)).trans ((V1_of m c main_arg3 (by decide)).trans rfl))

/-! ## The proof data family and the thread state -/

abbrev adm' : (p : Fin 2) → (pcfgs (F := F) p).Adm := fun p => (cfgs p).toPCfg_adm
/-- Both kernels' proof data, each at its entry contents. -/
def pdats : (p : Fin 2) → (c : Dev nD) → Dat τ (Elt F) Unit ℕ (UR sig nD τ) ℕ (Pipeline.pin (pcfgs (F := F)) adm' p) c
  | ⟨0, _⟩ => fun c => dat0 (E0 m) c
  | ⟨1, _⟩ => fun c => dat1 (E1 m) c
abbrev 𝒱' : Variants := Variants.none
abbrev L' : GSem nD τ sig → Finset Unit := fun _ => ∅
abbrev lv' : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- THE FIRST KERNEL over the thread state: entered with every buffer outside the kernels at `W1`, left at `W2`. -/
def reg0 : Pipeline.RegionSeg (pcfgs (F := F)) adm' (pdats m) () defs₀ 𝒱' L' lv' 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L' lv' 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E0 m) c)
    unfold Pipeline.ΦA
    iintro ⟨Hp, -, Hr⟩
    isplitl [Hr]; · iexact Hr
    iexact Hp
  hout c := by
    rw [Pipeline.ownSems0_none]
    refine (hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND KERNEL over the thread state: entered at `W2` (no host operation stands between the two kernels), left at
    `W3`, which the end of the run reads. -/
def reg1 : Pipeline.RegionSeg (pcfgs (F := F)) adm' (pdats m) () defs₀ 𝒱' L' lv' 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L' lv' 1 fun _ _ => rfl
  pre c := iprop(StableHlo.held (c : Thread nD τ) (Pipeline.ucRefs τ sig) (W2 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm' (pdats m) () defs₀ 𝒱' L' lv') :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing faulting,
    and at the end every buffer outside the kernels' own holds the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm' (pdats m) () cellOf_inj emb₁ defs₀ 𝒱' L' lv' m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Hand

end
-- ==== Proof.IdealAccValue.lean ====
/-
  What each case of the first kernel leaves, as plain terms: a first tile leaves zeros + K^T V in the accumulator, a
  middle or last tile leaves (what the accumulator held) + K^T V, and a last tile leaves the accumulator's new contents,
  recast as one 1 x 1024 x 1024 block, in the output block. Every store is of a whole buffer, so the stores read back
  are their payloads.
-/
import proofs.«131122_j82566451298900_2_alg».proof.Proof.Gen.KernelIdeal.Launch
import proofs.«131122_j82566451298900_2_alg».proof.Proof.Gen.KernelIdeal.Skeleton
import proofs.«131122_j82566451298900_2_alg».proof.Proof.Gen.KernelIdeal.Points
import proofs.«131122_j82566451298900_2_alg».proof.Proof.IdealAccFrame
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off2_zero : (![0, 0] : Fin 2 → Nat) = fun _ => 0 := by funext a; fin_cases a <;> rfl
theorem off3_zero : (![0, 0, 0] : Fin 3 → Nat) = fun _ => 0 := by funext a; fin_cases a <;> rfl

/-- A middle tile adds its product to what the accumulator held. -/
theorem accMiddle_eq (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : ¬atLast i) (x0 : Vec F S1x1024x1024 .f32) (x1 : Vec F S1024x1024 .bf16) (x2 : Vec F S1024x1024 .bf16) (xs : Vec F S1024x1024 .f32) :
    accMiddle c i arg2 harg2 arg3 harg3 arg4 harg4 arg5 harg5 arg6 harg6 hc0 hc1 x0 x1 x2 xs = k0_pay2 x0 x1 x2 xs := by
  unfold accMiddle
  rw [View.read_writes_junk_eq_canon]
  unfold runMiddle
  dsimp only
  sl_unfold_words
  rw [View.canon_unit_zero (S := S1024x1024) off2_zero]
  simp only [View.readAt_eq_ld, harg2.read_unread, harg3.read_unread, harg4.read_unread, harg6.read_unread,
    View.ld_unit_zero (S := S1024x1024) off2_zero, View.ld_unit_zero (S := S1x1024x1024) off3_zero]

/-- A first tile adds its product to zeros. -/
theorem accFirst_eq (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : atFirst i) (hc1 : ¬atLast i) (x0 : Vec F S1x1024x1024 .f32) (x1 : Vec F S1024x1024 .bf16) (x2 : Vec F S1024x1024 .bf16) :
    accFirst c i arg2 harg2 arg3 harg3 arg4 harg4 arg5 harg5 arg6 harg6 hc0 hc1 x0 x1 x2 = k0_pay2 x0 x1 x2 (k0_pay1 (F := F)) := by
  unfold accFirst
  rw [View.read_writes_junk_eq_canon]
  unfold runFirst
  dsimp only
  sl_unfold_words
  rw [View.canon_cons_unit_zero (S := S1024x1024) off2_zero]
  simp only [View.readAt_eq_ld, harg2.read_unread, harg3.read_unread, harg4.read_unread,
    View.ld_unit_zero (S := S1024x1024) off2_zero, View.ld_unit_zero (S := S1x1024x1024) off3_zero]
  rw [View.readCov_unit_zero (S := S1024x1024) arg6.view off2_zero]

/-- A last tile adds its product to what the accumulator held, -/
theorem accLast_eq (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : atLast i) (x0 : Vec F S1x1024x1024 .f32) (x1 : Vec F S1024x1024 .bf16) (x2 : Vec F S1024x1024 .bf16) (xs : Vec F S1024x1024 .f32) :
    accLast c i arg2 harg2 arg3 harg3 arg4 harg4 arg5 harg5 arg6 harg6 hc0 hc1 x0 x1 x2 xs = k0_pay2 x0 x1 x2 xs := by
  unfold accLast
  rw [View.read_writes_junk_eq_canon]
  unfold runLast
  dsimp only
  sl_unfold_words
  rw [View.canon_unit_zero (S := S1024x1024) off2_zero]
  simp only [View.readAt_eq_ld, harg2.read_unread, harg3.read_unread, harg4.read_unread, harg6.read_unread,
    View.ld_unit_zero (S := S1024x1024) off2_zero, View.ld_unit_zero (S := S1x1024x1024) off3_zero]

/-- and copies the sum out as one block. -/
theorem outLast_eq (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬atFirst i) (hc1 : atLast i) (x0 : Vec F S1x1024x1024 .f32) (x1 : Vec F S1024x1024 .bf16) (x2 : Vec F S1024x1024 .bf16) (xs : Vec F S1024x1024 .f32) :
    outLast c i arg2 harg2 arg3 harg3 arg4 harg4 arg5 harg5 arg6 harg6 hc0 hc1 x0 x1 x2 xs = k0_pay3 (k0_pay2 x0 x1 x2 xs) := by
  unfold outLast
  rw [View.read_writes_junk_eq_canon]
  unfold runLast
  dsimp only
  sl_unfold_words
  rw [View.canon_unit_zero (S := S1x1024x1024) off3_zero]
  simp only [View.readAt_eq_ld, harg2.read_unread, harg3.read_unread, harg4.read_unread, harg6.read_unread,
    View.ld_unit_zero (S := S1024x1024) off2_zero, View.ld_unit_zero (S := S1x1024x1024) off3_zero]
  rw [View.readCov_unit_zero (S := S1024x1024) arg6.view off2_zero]

end Cert.KernelIdeal.Hand

end
-- ==== Proof.IdealAccArray.lean ====
/-
  The first kernel's result array after the run. The accumulator after a point is the tile's product added to zeros (at a
  first tile) or to the accumulator after the point before; at the last tile of batch b it has collected all four tiles,
  and that is what is written back to block b of the result. The four written blocks are disjoint and fill the array, so
  the array ends as ONE function of its index: entry (b, e, d) is entry (e, d) of batch b's accumulated sum.
-/
import proofs.«131122_j82566451298900_2_alg».proof.Proof.Gen.KernelIdeal.Launch
import proofs.«131122_j82566451298900_2_alg».proof.Proof.Gen.KernelIdeal.Skeleton
import proofs.«131122_j82566451298900_2_alg».proof.Proof.Gen.KernelIdeal.Points
import proofs.«131122_j82566451298900_2_alg».proof.Proof.IdealAccValue
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The accumulator, point by point -/

/-- The accumulator after point `t`. -/
def accOf (c : Dev nD) (t : Fin cfg0.N) : Vec F S1024x1024 .f32 := (outsAt0 V c t.val t.isLt).2

/-- At a first tile: zeros plus the tile's product. -/
theorem accOf_first (c : Dev nD) (t : Fin cfg0.N) (h0 : t.val % 4 = 0) :
    accOf V c t = k0_pay2 (iblk0 V c 0 t) (iblk0 V c 1 t) (iblk0 V c 2 t) (k0_pay1 (F := F)) := by
  unfold accOf; rw [outsAt0_first V c t h0 (by omega)]; dsimp only; exact accFirst_eq (F := F) _ _ _ _ _ _ _ _ _ _ _ _ _ _ _ _ _

/-- At any other tile: the accumulator after the point before plus the tile's product. -/
theorem accOf_next (c : Dev nD) (t : Fin cfg0.N) (h0 : ¬t.val % 4 = 0) :
    accOf V c t = k0_pay2 (iblk0 V c 0 t) (iblk0 V c 1 t) (iblk0 V c 2 t) (accOf V c ⟨t.val - 1, Nat.lt_of_le_of_lt (Nat.sub_le _ _) t.isLt⟩) := by
  unfold accOf
  by_cases h1 : t.val % 4 = 3
  · rw [outsAt0_last V c t h0 h1]; dsimp only; exact accLast_eq (F := F) _ _ _ _ _ _ _ _ _ _ _ _ _ _ _ _ _ _
  · rw [outsAt0_middle V c t h0 h1]; dsimp only; exact accMiddle_eq (F := F) _ _ _ _ _ _ _ _ _ _ _ _ _ _ _ _ _ _

/-- At a last tile the output block receives the accumulator, recast as one block. -/
theorem out_last (c : Dev nD) (t : Fin cfg0.N) (h1 : t.val % 4 = 3) :
    (outsAt0 V c t.val t.isLt).1 = k0_pay3 (accOf V c t) := by
  have h0 : ¬t.val % 4 = 0 := by omega
  unfold accOf; rw [outsAt0_last V c t h0 h1]; dsimp only; rw [outLast_eq, accLast_eq]

/-! ## The result array as one function -/

/-- Grid point (b, j): batch b, row tile j. -/
def pt (b j : Fin 4) : Fin cfg0.N := ⟨4 * b.val + j.val, by rw [show cfg0.N = 16 from N_0]; omega⟩

/-- Entry (b, e, d) of the result array, as the block-local index (0, e, d). -/
def kvLocal (i : S4x1024x1024.Idx) : S1x1024x1024.Idx :=
  ValueIdx.ix3 (0 : Fin 1) (⟨(i 1).val, (i 1).isLt⟩ : Fin 1024) (⟨(i 2).val, (i 2).isLt⟩ : Fin 1024)

/-- The result array: entry (b, e, d) is entry (e, d) of the accumulator after the last tile of batch b. -/
def KVarr (c : Dev nD) : S4x1024x1024.Idx → Elt F .f32 :=
  fun i => k0_pay3 (accOf V c (pt ⟨(i 0).val, (i 0).isLt⟩ 3)) (kvLocal i)

/-- The result window's block index at point `t` is (t / 4, 0, 0): batch b's whole 1024 x 1024 block. -/
theorem idx_facts3 : ∀ t : Fin cfg0.N, win0_3.index t (0 : Fin 3) = t.val / 4 ∧ win0_3.index t (1 : Fin 3) = 0 ∧ win0_3.index t (2 : Fin 3) = 0 :=
  (by decide +kernel : ∀ t : Fin grid0.N, win0_3.index t (0 : Fin 3) = t.val / 4 ∧ win0_3.index t (1 : Fin 3) = 0 ∧ win0_3.index t (2 : Fin 3) = 0)

/-- What a last tile writes back is its block of `KVarr`. -/
theorem flushed3_eq (c : Dev nD) (t : Fin cfg0.N) (hf : (cfg0.win 3).flush t = true) :
    (dat0 V c).flushed 3 t = ((cfg0.win 3).blk t).view.read (Elt F) (KVarr V c) := by
  have h1 : t.val % 4 = 3 := (flush0_3 t).mp hf
  show (cfg0.win 3).cut (grid0.coords t) ((dat0 V c).after 3 t) = _
  rw [after0_3, out_last V c t h1]
  obtain ⟨e0, e1, e2⟩ := idx_facts3 t
  funext j
  show k0_pay3 (accOf V c t) j = KVarr V c (((cfg0.win 3).blk t).view.emb j)
  unfold KVarr
  have hj0 : (j 0).val < 1 := (j 0).isLt
  have hpt : pt ⟨((((cfg0.win 3).blk t).view.emb j) 0).val, ((((cfg0.win 3).blk t).view.emb j) 0).isLt⟩ 3 = t := by
    apply Fin.ext
    show 4 * (win0_3.index t (0 : Fin 3) * 1 + 1 * (j 0).val) + 3 = t.val
    omega
  have hloc : kvLocal (((cfg0.win 3).blk t).view.emb j) = j := by
    funext a; apply Fin.ext
    match a with
    | ⟨0, _⟩ => show 0 = (j 0).val; omega
    | ⟨1, _⟩ => show win0_3.index t (1 : Fin 3) * 1024 + 1 * (j 1).val = (j 1).val; omega
    | ⟨2, _⟩ => show win0_3.index t (2 : Fin 3) * 1024 + 1 * (j 2).val = (j 2).val; omega
  rw [hpt, hloc]

theorem mem_blk3 (t : Fin cfg0.N) (i : S4x1024x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v6).slice (win0_3.rect t)).set ↔ _
  rw [View.set_slice_whole, Rect.mem_set_unit]
  exact Iff.rfl

/-- Entry (b, e, d) lies in the block the last tile of batch b writes back. -/
theorem cover3 (i : S4x1024x1024.Idx) : ∃ t : Fin cfg0.N, (cfg0.win 3).flush t = true ∧ i ∈ ((cfg0.win 3).blk t).view.set := by
  have hi0 : (i 0).val < 4 := (i 0).isLt
  have hi1 : (i 1).val < 1024 := (i 1).isLt
  have hi2 : (i 2).val < 1024 := (i 2).isLt
  refine ⟨pt ⟨(i 0).val, hi0⟩ 3, (flush0_3 _).mpr (by show (4 * (i 0).val + 3) % 4 = 3; omega), ?_⟩
  rw [mem_blk3]
  obtain ⟨e0, e1, e2⟩ := idx_facts3 (pt ⟨(i 0).val, hi0⟩ 3)
  have e0' : win0_3.index (pt ⟨(i 0).val, hi0⟩ 3) (0 : Fin 3) = (i 0).val := by
    rw [e0]; show (4 * (i 0).val + 3) / 4 = (i 0).val; omega
  intro a
  match a with
  | ⟨0, _⟩ => show win0_3.index (pt ⟨(i 0).val, hi0⟩ 3) (0 : Fin 3) * 1 ≤ (i 0).val ∧ (i 0).val < win0_3.index (pt ⟨(i 0).val, hi0⟩ 3) (0 : Fin 3) * 1 + 1; omega
  | ⟨1, _⟩ => show win0_3.index (pt ⟨(i 0).val, hi0⟩ 3) (1 : Fin 3) * 1024 ≤ (i 1).val ∧ (i 1).val < win0_3.index (pt ⟨(i 0).val, hi0⟩ 3) (1 : Fin 3) * 1024 + 1024; omega
  | ⟨2, _⟩ => show win0_3.index (pt ⟨(i 0).val, hi0⟩ 3) (2 : Fin 3) * 1024 ≤ (i 2).val ∧ (i 2).val < win0_3.index (pt ⟨(i 0).val, hi0⟩ 3) (2 : Fin 3) * 1024 + 1024; omega

/-- THE RESULT ARRAY after the first kernel. -/
theorem final0 (c : Dev nD) : (dat0 V c).arrAt 3 cfg0.N = KVarr V c :=
  (dat0 V c).arrAt_eq_of_cover 3 (KVarr V c) (fun t hf => flushed3_eq V c t hf) cover3

/-- The accumulator after the last tile of batch b: four products added, in tile order, to zeros. -/
theorem accOf_batch (c : Dev nD) (b : Fin 4) :
    accOf V c (pt b 3) = k0_pay2 (iblk0 V c 0 (pt b 3)) (iblk0 V c 1 (pt b 3)) (iblk0 V c 2 (pt b 3)) (k0_pay2 (iblk0 V c 0 (pt b 2)) (iblk0 V c 1 (pt b 2)) (iblk0 V c 2 (pt b 2)) (k0_pay2 (iblk0 V c 0 (pt b 1)) (iblk0 V c 1 (pt b 1)) (iblk0 V c 2 (pt b 1)) (k0_pay2 (iblk0 V c 0 (pt b 0)) (iblk0 V c 1 (pt b 0)) (iblk0 V c 2 (pt b 0)) (k0_pay1 (F := F))))) := by
  have hb : b.val < 4 := b.isLt
  rw [accOf_next V c (pt b 3) (by show ¬(4 * b.val + 3) % 4 = 0; omega),
    show (⟨(pt b 3).val - 1, Nat.lt_of_le_of_lt (Nat.sub_le _ _) (pt b 3).isLt⟩ : Fin cfg0.N) = pt b 2 from Fin.ext (by show 4 * b.val + 3 - 1 = 4 * b.val + 2; omega),
    accOf_next V c (pt b 2) (by show ¬(4 * b.val + 2) % 4 = 0; omega),
    show (⟨(pt b 2).val - 1, Nat.lt_of_le_of_lt (Nat.sub_le _ _) (pt b 2).isLt⟩ : Fin cfg0.N) = pt b 1 from Fin.ext (by show 4 * b.val + 2 - 1 = 4 * b.val + 1; omega),
    accOf_next V c (pt b 1) (by show ¬(4 * b.val + 1) % 4 = 0; omega),
    show (⟨(pt b 1).val - 1, Nat.lt_of_le_of_lt (Nat.sub_le _ _) (pt b 1).isLt⟩ : Fin cfg0.N) = pt b 0 from Fin.ext (by show 4 * b.val + 1 - 1 = 4 * b.val + 0; omega),
    accOf_first V c (pt b 0) (by show (4 * b.val + 0) % 4 = 0; omega)]

end Region0

end Cert.KernelIdeal.Hand

end
-- ==== Proof.IdealAccBlocks.lean ====
/-
  The first kernel's input blocks, entry by entry. At grid point t = 4 b + l the first window's block is rows
  1024 l … 1024 l + 1023 of batch b of X; the other two windows' blocks are the whole transposed weight matrices.
-/
import proofs.«131122_j82566451298900_2_alg».proof.Proof.Gen.KernelIdeal.Launch
import proofs.«131122_j82566451298900_2_alg».proof.Proof.Gen.KernelIdeal.Skeleton
import proofs.«131122_j82566451298900_2_alg».proof.Proof.Gen.KernelIdeal.Points
import proofs.«131122_j82566451298900_2_alg».proof.Proof.IdealAccFrame
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- The block indices of the three input windows at point `t`: (t / 4, t % 4, 0) for X, (0, 0) for the weights. -/
theorem idx_facts_in0 : ∀ t : Fin cfg0.N, win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0 ∧ win0_2.index t (0 : Fin 2) = 0 ∧ win0_2.index t (1 : Fin 2) = 0 :=
  (by decide +kernel : ∀ t : Fin grid0.N, win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0 ∧ win0_2.index t (0 : Fin 2) = 0 ∧ win0_2.index t (1 : Fin 2) = 0)

/-- Row `r`, column `f` of the X tile at point `t`, as an index of X. -/
def xIdx0 (t : Fin cfg0.N) (y : S1x1024x1024.Idx) : S4x4096x1024.Idx :=
  ValueIdx.ix3 (⟨t.val / 4, by have h16 : t.val < 16 := lt_of_lt_of_eq t.isLt (show cfg0.N = 16 from N_0); omega⟩ : Fin 4)
    (⟨(t.val % 4) * 1024 + (y 1).val, by have : (y 1).val < 1024 := (y 1).isLt; omega⟩ : Fin 4096)
    (⟨(y 2).val, (y 2).isLt⟩ : Fin 1024)

theorem iblk0_0_apply (c : Dev nD) (t : Fin cfg0.N) (y : S1x1024x1024.Idx) :
    iblk0 V c 0 t y = V c main_arg0 (xIdx0 t y) := by
  obtain ⟨e0, e1, e2, -, -, -, -⟩ := idx_facts_in0 t
  show V c main_arg0 (((cfg0.win 0).blk t).view.emb y) = V c main_arg0 (xIdx0 t y)
  refine congrArg _ (funext fun a => Fin.ext ?_)
  have hy0 : (y 0).val < 1 := (y 0).isLt
  match a with
  | ⟨0, _⟩ => show win0_0.index t (0 : Fin 3) * 1 + 1 * (y 0).val = t.val / 4; omega
  | ⟨1, _⟩ => show win0_0.index t (1 : Fin 3) * 1024 + 1 * (y 1).val = (t.val % 4) * 1024 + (y 1).val; omega
  | ⟨2, _⟩ => show win0_0.index t (2 : Fin 3) * 1024 + 1 * (y 2).val = (y 2).val; omega

theorem iblk0_1_apply (c : Dev nD) (t : Fin cfg0.N) (y : S1024x1024.Idx) :
    iblk0 V c 1 t y = V c main_v3 y := by
  obtain ⟨-, -, -, e0, e1, -, -⟩ := idx_facts_in0 t
  show V c main_v3 (((cfg0.win 1).blk t).view.emb y) = V c main_v3 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem iblk0_2_apply (c : Dev nD) (t : Fin cfg0.N) (y : S1024x1024.Idx) :
    iblk0 V c 2 t y = V c main_v5 y := by
  obtain ⟨-, -, -, -, -, e0, e1⟩ := idx_facts_in0 t
  show V c main_v5 (((cfg0.win 2).blk t).view.emb y) = V c main_v5 y
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 1024 + 1 * (y 1).val = (y 1).val; omega

end Region0

end Cert.KernelIdeal.Hand

end
-- ==== Proof.IdealAccPayload.lean ====
import proofs.«131122_j82566451298900_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
/-
  The first kernel's three stored values, read one element at a time over the extended reals.
    * the initial value of the accumulator is 0;
    * one accumulation step, from a row tile X of the input ([1, 1024, 1024], rows r, model axis f), the two weight
      matrices stored as [f, e], and the accumulator acc:
          acc[e, d] + ∑ᵣ (∑_f X[r, f] Wk[f, e]) · (∑_f X[r, f] Wv[f, d])
      (K = X Wk and V = X Wv are plain matrix products; the third product contracts the ROW axis of both, Kᵀ V;
      every product accumulates into the zero matrix, and the format changes are the identity on extended reals);
    * the value written out is the accumulator with a leading unit axis added.
-/

noncomputable section

open scoped BigOperators

namespace Cert.KernelIdeal.Hand

open Cert.KernelIdeal Cert.KernelIdeal.Gen Idealize.ShloMosaic Idealize.ShloMosaic.ValueIdx
open Facts₀ Facts

variable [Facts]

/-! ## The operand indices of the two contractions, coordinate by coordinate -/

theorem plain_lhs_0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem plain_lhs_1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem plain_rhs_0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem plain_rhs_1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

theorem rows_lhs_0 (j : S1024x1024.Idx) (q : dot_S1024x1024_S1024x1024_S1024x1024_0_0_1_1_n_n.contr.Idx) :
    (dot_S1024x1024_S1024x1024_S1024x1024_0_0_1_1_n_n.lhsIdx j q 0).val = (q ⟨0, by decide⟩).val :=
  dot_S1024x1024_S1024x1024_S1024x1024_0_0_1_1_n_n.lhsIdx_val_of_single rfl j q
theorem rows_lhs_1 (j : S1024x1024.Idx) (q : dot_S1024x1024_S1024x1024_S1024x1024_0_0_1_1_n_n.contr.Idx) :
    (dot_S1024x1024_S1024x1024_S1024x1024_0_0_1_1_n_n.lhsIdx j q 1).val = (j 0).val := by
  unfold DotDims.lhsIdx
  rw [dif_neg (show ¬(1 : Fin S1024x1024.rank) ∈ dot_S1024x1024_S1024x1024_S1024x1024_0_0_1_1_n_n.lhsBatch by decide),
    dif_pos (show (1 : Fin S1024x1024.rank) ∈ dot_S1024x1024_S1024x1024_S1024x1024_0_0_1_1_n_n.lhsNonContracting by decide)]
  rfl
theorem rows_rhs_0 (j : S1024x1024.Idx) (q : dot_S1024x1024_S1024x1024_S1024x1024_0_0_1_1_n_n.contr.Idx) :
    (dot_S1024x1024_S1024x1024_S1024x1024_0_0_1_1_n_n.rhsIdx j q 0).val = (q ⟨0, by decide⟩).val :=
  dot_S1024x1024_S1024x1024_S1024x1024_0_0_1_1_n_n.rhsIdx_val_of_single rfl j q
theorem rows_rhs_1 (j : S1024x1024.Idx) (q : dot_S1024x1024_S1024x1024_S1024x1024_0_0_1_1_n_n.contr.Idx) :
    (dot_S1024x1024_S1024x1024_S1024x1024_0_0_1_1_n_n.rhsIdx j q 1).val = (j 1).val := by
  unfold DotDims.rhsIdx
  rw [dif_neg (show ¬(1 : Fin S1024x1024.rank) ∈ dot_S1024x1024_S1024x1024_S1024x1024_0_0_1_1_n_n.rhsBatch by decide),
    dif_pos (show (1 : Fin S1024x1024.rank) ∈ dot_S1024x1024_S1024x1024_S1024x1024_0_0_1_1_n_n.rhsNonContracting by decide)]
  rfl

/-! ## The two contractions at an index -/

/-- The plain product (left contracts its axis 1, right its axis 0) into the zero matrix:
    out[i, j] = ∑ₖ a[i, k] b[k, j]. -/
theorem mm_plain_apply {φ₁ φ₂ : FTy} (a : FVec Ideal S1024x1024 φ₁) (b : FVec Ideal S1024x1024 φ₂) (i j : Fin 1024) :
    FloatOps.matmul dot_S1024x1024_S1024x1024_S1024x1024_1_0_0_1_n_n none a b (constant S1024x1024 .f32 0x00000000#32) (ix2 i j)
      = ∑ k : Fin 1024, a (ix2 i k) * b (ix2 k j) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 i j) ((contrEquiv1 dot_S1024x1024_S1024x1024_S1024x1024_1_0_0_1_n_n 1024 rfl rfl).symm k) = ix2 i k :=
    funext fun c => Fin.ext (by
      match c with
      | ⟨0, _⟩ => exact plain_lhs_0 _ _
      | ⟨1, _⟩ => exact (plain_lhs_1 _ _).trans hk)
  have er : dot_S1024x1024_S1024x1024_S1024x1024_1_0_0_1_n_n.rhsIdx (ix2 i j) ((contrEquiv1 dot_S1024x1024_S1024x1024_S1024x1024_1_0_0_1_n_n 1024 rfl rfl).symm k) = ix2 k j :=
    funext fun c => Fin.ext (by
      match c with
      | ⟨0, _⟩ => exact (plain_rhs_0 _ _).trans hk
      | ⟨1, _⟩ => exact plain_rhs_1 _ _)
  rw [el, er]

/-- The product contracting the FIRST axis of both operands, into the zero matrix:
    out[i, j] = ∑ₖ a[k, i] b[k, j]. -/
theorem mm_rows_apply {φ₁ φ₂ : FTy} (a : FVec Ideal S1024x1024 φ₁) (b : FVec Ideal S1024x1024 φ₂) (i j : Fin 1024) :
    FloatOps.matmul dot_S1024x1024_S1024x1024_S1024x1024_0_0_1_1_n_n none a b (constant S1024x1024 .f32 0x00000000#32) (ix2 i j)
      = ∑ k : Fin 1024, a (ix2 k i) * b (ix2 k j) := by
  rw [Ideal.matmul_constant_zero_apply, ← Equiv.sum_comp (contrEquiv1 dot_S1024x1024_S1024x1024_S1024x1024_0_0_1_1_n_n 1024 rfl rfl).symm]
  refine Finset.sum_congr rfl fun k _ => ?_
  have hk := contrEquiv1_symm_val dot_S1024x1024_S1024x1024_S1024x1024_0_0_1_1_n_n 1024 rfl rfl k
  have el : dot_S1024x1024_S1024x1024_S1024x1024_0_0_1_1_n_n.lhsIdx (ix2 i j) ((contrEquiv1 dot_S1024x1024_S1024x1024_S1024x1024_0_0_1_1_n_n 1024 rfl rfl).symm k) = ix2 k i :=
    funext fun c => Fin.ext (by
      match c with
      | ⟨0, _⟩ => exact (rows_lhs_0 _ _).trans hk
      | ⟨1, _⟩ => exact rows_lhs_1 _ _)
  have er : dot_S1024x1024_S1024x1024_S1024x1024_0_0_1_1_n_n.rhsIdx (ix2 i j) ((contrEquiv1 dot_S1024x1024_S1024x1024_S1024x1024_0_0_1_1_n_n 1024 rfl rfl).symm k) = ix2 k j :=
    funext fun c => Fin.ext (by
      match c with
      | ⟨0, _⟩ => exact (rows_rhs_0 _ _).trans hk
      | ⟨1, _⟩ => exact rows_rhs_1 _ _)
  rw [el, er]

/-! ## The three stored values -/

/-- The accumulator starts at zero. -/
theorem k0_pay1_apply (e d : Fin 1024) : k0_pay1 (F := Ideal) (ix2 e d) = 0 := by
  unfold k0_pay1
  simp only [shapeCast_self]
  exact Ideal.ofBits_zero_f32

/-- One accumulation step: acc + Kᵀ V for the row tile's K = X Wk and V = X Wv. -/
theorem k0_pay2_apply (x0 : S1x1024x1024.Idx → EReal) (x1 x2 acc : S1024x1024.Idx → EReal) (e d : Fin 1024) :
    k0_pay2 (F := Ideal) x0 x1 x2 acc (ix2 e d)
      = acc (ix2 e d) + ∑ r : Fin 1024, (∑ f : Fin 1024, x0 (ix3 0 r f) * x1 (ix2 f e))
          * (∑ f : Fin 1024, x0 (ix3 0 r f) * x2 (ix2 f d)) := by
  unfold k0_pay2
  simp only [shapeCast_self]
  simp only [addf_apply, truncf_apply, mm_rows_apply, mm_plain_apply, shapeCast_1ab_ab_apply]

/-- The value written out: the accumulator under a leading unit axis. -/
theorem k0_pay3_apply (a : S1024x1024.Idx → EReal) (e d : Fin 1024) :
    k0_pay3 (F := Ideal) a (ix3 0 e d) = a (ix2 e d) := by
  unfold k0_pay3
  exact shapeCast_ab_1ab_apply a _ 0 e d

end Cert.KernelIdeal.Hand

end
-- ==== Proof.IdealHostValue.lean ====
import proofs.«131122_j82566451298900_2_alg».proof.Proof.Gen.KernelIdeal.Launch
import Idealize.ShloMosaic.Lib.StableHlo.Run
import Idealize.ShloMosaic.Lib.Pipeline.Value
import Idealize.ShloMosaic.Lib.ValueIdx
/-
  The operations the host runs before the first kernel: each weight matrix W ([e, f]) is transposed and narrowed,
  giving Wᵀ stored as [f, e]. Over the extended reals the narrowing is the identity, so the result at (f, e) is the
  argument at (e, f). The argument arrays themselves are left as they were.
-/

noncomputable section

namespace Cert.KernelIdeal.Hand

open Cert.KernelIdeal Cert.KernelIdeal.Gen Idealize.ShloMosaic Idealize.ShloMosaic.ValueIdx Idealize.ShloMosaic.TcCoe
open Facts₀ Facts

variable [Facts]

/-- The transpose of a square matrix at (f, e) is the matrix at (e, f). -/
theorem transpose_ix2 {α : Type} (x : S1024x1024.Idx → α) (h : S1024x1024.Transposes [1, 0] S1024x1024) (f e : Fin 1024) :
    transpose S1024x1024 [1, 0] x h (ix2 f e) = x (ix2 e f) :=
  transpose_apply _ x h _ _ fun c => match c with | ⟨0, _⟩ => rfl | ⟨1, _⟩ => rfl

/-- After the host's operations the first transposed weight matrix at (f, e) is the second argument at (e, f). -/
theorem host_v1_apply (W : Valuation τ sig (Elt Ideal)) (f e : Fin 1024) :
    (StableHlo.after (hostOps0 (F := Ideal)) W (Proc.devRef .tc main_v1) : S1024x1024.Idx → EReal) (ix2 f e)
      = (W (Proc.devRef .tc main_arg1) : S1024x1024.Idx → EReal) (ix2 e f) := by
  have e1 : (StableHlo.after (hostOps0 (F := Ideal)) W (Proc.devRef .tc main_v1) : S1024x1024.Idx → EReal)
      = transpose S1024x1024 [1, 0] (W (Proc.devRef .tc main_arg1) : S1024x1024.Idx → EReal)
          Facts₀.transposes_S1024x1024_S1024x1024_1_0 := by
    after_results; rfl
  rw [e1]
  exact transpose_ix2 _ _ f e

/-- … the second at (f, e) is the third argument at (e, f) … -/
theorem host_v3_apply (W : Valuation τ sig (Elt Ideal)) (f e : Fin 1024) :
    (StableHlo.after (hostOps0 (F := Ideal)) W (Proc.devRef .tc main_v3) : S1024x1024.Idx → EReal) (ix2 f e)
      = (W (Proc.devRef .tc main_arg2) : S1024x1024.Idx → EReal) (ix2 e f) := by
  have e1 : (StableHlo.after (hostOps0 (F := Ideal)) W (Proc.devRef .tc main_v3) : S1024x1024.Idx → EReal)
      = transpose S1024x1024 [1, 0] (W (Proc.devRef .tc main_arg2) : S1024x1024.Idx → EReal)
          Facts₀.transposes_S1024x1024_S1024x1024_1_0 := by
    after_results; rfl
  rw [e1]
  exact transpose_ix2 _ _ f e

/-- … and the third at (f, e) is the fourth argument at (e, f). -/
theorem host_v5_apply (W : Valuation τ sig (Elt Ideal)) (f e : Fin 1024) :
    (StableHlo.after (hostOps0 (F := Ideal)) W (Proc.devRef .tc main_v5) : S1024x1024.Idx → EReal) (ix2 f e)
      = (W (Proc.devRef .tc main_arg3) : S1024x1024.Idx → EReal) (ix2 e f) := by
  have e1 : (StableHlo.after (hostOps0 (F := Ideal)) W (Proc.devRef .tc main_v5) : S1024x1024.Idx → EReal)
      = transpose S1024x1024 [1, 0] (W (Proc.devRef .tc main_arg3) : S1024x1024.Idx → EReal)
          Facts₀.transposes_S1024x1024_S1024x1024_1_0 := by
    after_results; rfl
  rw [e1]
  exact transpose_ix2 _ _ f e

/-- The input array is not written by the host's operations. -/
theorem host_arg0 (W : Valuation τ sig (Elt Ideal)) :
    StableHlo.after (hostOps0 (F := Ideal)) W (Proc.devRef .tc main_arg0) = W (Proc.devRef .tc main_arg0) := by
  after_results

end Cert.KernelIdeal.Hand

end
-- ==== Proof.LinAttnSpec.lean ====
/-
  Linear ("softmax-free") attention as plain mathematics over the extended reals.

  For an input x : [4, 4096, 1024] and three weight matrices wq, wk, wv : [1024, 1024] put
    q = x wqᵀ,  k = x wkᵀ,  v = x wvᵀ      (each of shape [4, 4096, 1024]).
  Two ways to form the output are written down:
    * refOut :  out[b,l,d] = ∑ₘ ((∑ₑ q[b,l,e] k[b,m,e]) · c) · v[b,m,d]                (scores first),
    * kerOut :  out[b,l,d] = (∑ₑ q[b,l,e] · KV[b,e,d]) · c,  KV[b,e,d] = ∑ₘ k[b,m,e] v[b,m,d],
      the sum over the 4096 rows m being taken as four tiles of 1024 rows added left to right onto 0.
  Over the reals the two agree: both are ∑ₘ ∑ₑ q k v c, by distributivity and exchanging the two finite sums.
  Over the extended reals products and sums of finite values are the reals' (the coercion ℝ → EReal respects
  + and · on ℝ), so with every input entry finite the two outputs are equal (kerOut_eq_refOut).
-/
import Idealize.ShloMosaic.PureOps.Ideal
import Idealize.ShloMosaic.Lib.ValueIdx

noncomputable section

open scoped BigOperators

namespace Cert.LinAttn

open Idealize.ShloMosaic Idealize.ShloMosaic.ValueIdx

/-- The shape [4, 4096, 1024] of the input and of the output. -/
abbrev SX : Shape := ⟨3, ![4, 4096, 1024]⟩
/-- The shape [1024, 1024] of a weight matrix. -/
abbrev SW : Shape := ⟨2, ![1024, 1024]⟩

/-- The scale constant: the extended real the f32 word 0x3D000000 denotes (it is 1/32). -/
def cst : EReal := Ideal.ofBits .f32 0x3D000000#32

/-- Row r of tile j, as a row of the whole sequence: j · 1024 + r. -/
abbrev row (j : Fin 4) (r : Fin 1024) : Fin 4096 := ⟨j.val * 1024 + r.val, by omega⟩

/-- q = x wqᵀ at (b, l, e). -/
def q (x : SX.Idx → EReal) (wq : SW.Idx → EReal) (b : Fin 4) (l : Fin 4096) (e : Fin 1024) : EReal :=
  ∑ f : Fin 1024, x (ix3 b l f) * wq (ix2 e f)
/-- k = x wkᵀ at (b, l, e). -/
def kk (x : SX.Idx → EReal) (wk : SW.Idx → EReal) (b : Fin 4) (l : Fin 4096) (e : Fin 1024) : EReal :=
  ∑ f : Fin 1024, x (ix3 b l f) * wk (ix2 e f)
/-- v = x wvᵀ at (b, l, d). -/
def vv (x : SX.Idx → EReal) (wv : SW.Idx → EReal) (b : Fin 4) (l : Fin 4096) (d : Fin 1024) : EReal :=
  ∑ f : Fin 1024, x (ix3 b l f) * wv (ix2 d f)

/-- Tile j's contribution to KV[b] at (e, d): the sum of k[b,m,e] v[b,m,d] over the tile's 1024 rows. -/
def tile (x : SX.Idx → EReal) (wk wv : SW.Idx → EReal) (b : Fin 4) (j : Fin 4) (e d : Fin 1024) : EReal :=
  ∑ r : Fin 1024, kk x wk b (row j r) e * vv x wv b (row j r) d

/-- KV[b] at (e, d): the four tiles added, left to right, onto zero. -/
def kv (x : SX.Idx → EReal) (wk wv : SW.Idx → EReal) (b : Fin 4) (e d : Fin 1024) : EReal :=
  (((0 + tile x wk wv b 0 e d) + tile x wk wv b 1 e d) + tile x wk wv b 2 e d) + tile x wk wv b 3 e d

/-- The output formed through KV:  (q[b,l,:] · KV[b][:,d]) · c. -/
def kerOut (x : SX.Idx → EReal) (wq wk wv : SW.Idx → EReal) : SX.Idx → EReal := fun i =>
  (∑ e : Fin 1024, q x wq (i 0) (i 1) e * kv x wk wv (i 0) e (i 2)) * cst

/-- The output formed through the scores:  ∑ₘ ((q[b,l,:] · k[b,m,:]) · c) · v[b,m,d]. -/
def refOut (x : SX.Idx → EReal) (wq wk wv : SW.Idx → EReal) : SX.Idx → EReal := fun i =>
  ∑ m : Fin 4096, ((∑ e : Fin 1024, q x wq (i 0) (i 1) e * kk x wk (i 0) m e) * cst) * vv x wv (i 0) m (i 2)

theorem kerOut_ix3 (x : SX.Idx → EReal) (wq wk wv : SW.Idx → EReal) (b : Fin 4) (l : Fin 4096) (d : Fin 1024) :
    kerOut x wq wk wv (ix3 b l d) = (∑ e : Fin 1024, q x wq b l e * kv x wk wv b e d) * cst := rfl

theorem refOut_ix3 (x : SX.Idx → EReal) (wq wk wv : SW.Idx → EReal) (b : Fin 4) (l : Fin 4096) (d : Fin 1024) :
    refOut x wq wk wv (ix3 b l d)
      = ∑ m : Fin 4096, ((∑ e : Fin 1024, q x wq b l e * kk x wk b m e) * cst) * vv x wv b m d := rfl

/-- Every entry of the array is a real number (neither infinity). -/
def IsRealArr {ι : Type} (a : ι → EReal) : Prop := ∀ i, ∃ r : ℝ, a i = (r : EReal)

/-! ## The coercion ℝ → EReal and finite sums -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale constant is the real number 1/32. -/
theorem cst_eq : cst = (((1 : ℝ) / 32 : ℝ) : EReal) := by
  simp [cst, Ideal.ofBits, Ideal.ieee, -EReal.coe_mul]; norm_num

/-! ## The sum over 4096 rows as four tiles of 1024 -/

/-- A sum over the 4096 rows is the double sum over the 4 tiles and the 1024 rows of each. -/
theorem sum_rows {M : Type} [AddCommMonoid M] (f : Fin 4096 → M) :
    ∑ m : Fin 4096, f m = ∑ j : Fin 4, ∑ r : Fin 1024, f (row j r) := by
  rw [← Equiv.sum_comp (finProdFinEquiv (m := 4) (n := 1024)) f, Fintype.sum_prod_type]
  refine Finset.sum_congr rfl fun j _ => Finset.sum_congr rfl fun r _ => ?_
  congr 1
  apply Fin.ext
  show r.val + 1024 * j.val = j.val * 1024 + r.val
  omega

/-- … so the four tiles added left to right are the sum over all rows. -/
theorem four_tiles {M : Type} [AddCommMonoid M] (f : Fin 4096 → M) :
    (((∑ r : Fin 1024, f (row 0 r)) + ∑ r : Fin 1024, f (row 1 r)) + ∑ r : Fin 1024, f (row 2 r))
        + ∑ r : Fin 1024, f (row 3 r) = ∑ m : Fin 4096, f m := by
  rw [sum_rows, Fin.sum_univ_four]

/-! ## The law over the reals -/

/-- Over the reals: contracting q against KV = ∑ₘ kₘ vₘ (taken as four tiles) and scaling equals summing the scaled
    scores q · kₘ against vₘ. -/
theorem real_law (Q : Fin 1024 → ℝ) (K : Fin 4096 → Fin 1024 → ℝ) (V : Fin 4096 → ℝ) (c : ℝ) :
    (∑ e : Fin 1024, Q e * ((((∑ r : Fin 1024, K (row 0 r) e * V (row 0 r)) + ∑ r : Fin 1024, K (row 1 r) e * V (row 1 r))
        + ∑ r : Fin 1024, K (row 2 r) e * V (row 2 r)) + ∑ r : Fin 1024, K (row 3 r) e * V (row 3 r))) * c
      = ∑ m : Fin 4096, ((∑ e : Fin 1024, Q e * K m e) * c) * V m := by
  have h : ∀ e : Fin 1024, ((((∑ r : Fin 1024, K (row 0 r) e * V (row 0 r)) + ∑ r : Fin 1024, K (row 1 r) e * V (row 1 r))
        + ∑ r : Fin 1024, K (row 2 r) e * V (row 2 r)) + ∑ r : Fin 1024, K (row 3 r) e * V (row 3 r))
      = ∑ m : Fin 4096, K m e * V m := fun e => four_tiles (fun m => K m e * V m)
  simp only [h]
  simp only [Finset.mul_sum, Finset.sum_mul]
  rw [Finset.sum_comm]
  refine Finset.sum_congr rfl fun m _ => Finset.sum_congr rfl fun e _ => ?_
  ring

/-! ## The law over the extended reals, for finite inputs -/

theorem kerOut_eq_refOut {x : SX.Idx → EReal} {wq wk wv : SW.Idx → EReal}
    (hx : IsRealArr x) (hq : IsRealArr wq) (hk : IsRealArr wk) (hv : IsRealArr wv) :
    kerOut x wq wk wv = refOut x wq wk wv := by
  choose rx hrx using hx
  choose rq hrq using hq
  choose rk hrk using hk
  choose rv hrv using hv
  obtain rfl : x = fun i => (rx i : EReal) := funext hrx
  obtain rfl : wq = fun i => (rq i : EReal) := funext hrq
  obtain rfl : wk = fun i => (rk i : EReal) := funext hrk
  obtain rfl : wv = fun i => (rv i : EReal) := funext hrv
  funext i
  simp only [kerOut, refOut, q, kk, vv, kv, tile, cst_eq, zero_add, ← EReal.coe_mul, ← coe_sum, ← EReal.coe_add]
  exact congrArg Real.toEReal (real_law
    (fun e => ∑ f : Fin 1024, rx (ix3 (i 0) (i 1) f) * rq (ix2 e f))
    (fun m e => ∑ f : Fin 1024, rx (ix3 (i 0) m f) * rk (ix2 e f))
    (fun m => ∑ f : Fin 1024, rx (ix3 (i 0) m f) * rv (ix2 (i 2) f)) (1 / 32))

end Cert.LinAttn

end
-- ==== Proof.IdealBridgeKV.lean ====
/-
  The first kernel's result, entry by entry, over the extended reals. Entry (b, e, d) of the array it leaves is
  (((0 + T_0) + T_1) + T_2) + T_3, where T_j = sum over the 1024 rows r of tile j of K[b, 1024 j + r, e] * V[b, 1024 j + r, d],
  K = X Wk^T and V = X Wv^T: the blocks the four points of batch b were handed are the row tiles of X and the
  transposed weights, and the transposes read at (f, e) are the weights at (e, f).
-/
import proofs.«131122_j82566451298900_2_alg».proof.Proof.IdealRun
import proofs.«131122_j82566451298900_2_alg».proof.Proof.IdealAccArray
import proofs.«131122_j82566451298900_2_alg».proof.Proof.IdealAccBlocks
import proofs.«131122_j82566451298900_2_alg».proof.Proof.IdealAccPayload
import proofs.«131122_j82566451298900_2_alg».proof.Proof.IdealHostValue
import proofs.«131122_j82566451298900_2_alg».proof.Proof.LinAttnSpec

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.LinAttn

variable (m : (ℓ : Loc nD τ sig) → Buf (Elt Ideal) ℓ)

/-! ## What the first kernel finds in its arrays -/

/-- X is as launched: the host's operations do not write it. -/
theorem E0_arg0 (c : Dev nD) : E0 m c main_arg0 = m ((c : Thread nD τ).loc main_arg0) :=
  (V1_of m c main_arg0 (by decide)).trans rfl
/-- The transposed key weights at (f, e) are the key weights at (e, f); -/
theorem E0_v3 (c : Dev nD) (f e : Fin 1024) :
    (E0 m c main_v3 : S1024x1024.Idx → EReal) (ix2 f e) = (m ((c : Thread nD τ).loc main_arg2) : S1024x1024.Idx → EReal) (ix2 e f) :=
  host_v3_apply (W0 m c) f e
/-- the transposed value weights likewise. -/
theorem E0_v5 (c : Dev nD) (f e : Fin 1024) :
    (E0 m c main_v5 : S1024x1024.Idx → EReal) (ix2 f e) = (m ((c : Thread nD τ).loc main_arg3) : S1024x1024.Idx → EReal) (ix2 e f) :=
  host_v5_apply (W0 m c) f e

/-- Row r, column f of the X tile at grid point (b, j) is X[b, 1024 j + r, f]. -/
theorem blk0_pt (c : Dev nD) (b j : Fin 4) (r f : Fin 1024) :
    iblk0 (E0 m) c 0 (pt b j) (ix3 (0 : Fin 1) r f) = (m ((c : Thread nD τ).loc main_arg0) : S4x4096x1024.Idx → EReal) (ix3 b (row j r) f) := by
  rw [iblk0_0_apply, E0_arg0]
  refine congrArg _ (funext fun a => Fin.ext ?_)
  have hb : b.val < 4 := b.isLt
  have hj : j.val < 4 := j.isLt
  match a with
  | ⟨0, _⟩ => show (4 * b.val + j.val) / 4 = b.val; omega
  | ⟨1, _⟩ => show (4 * b.val + j.val) % 4 * 1024 + r.val = j.val * 1024 + r.val; omega
  | ⟨2, _⟩ => rfl
theorem blk1_pt (c : Dev nD) (t : Fin cfg0.N) (f e : Fin 1024) :
    iblk0 (E0 m) c 1 t (ix2 f e) = (m ((c : Thread nD τ).loc main_arg2) : S1024x1024.Idx → EReal) (ix2 e f) := by
  rw [iblk0_1_apply]; exact E0_v3 m c f e
theorem blk2_pt (c : Dev nD) (t : Fin cfg0.N) (f e : Fin 1024) :
    iblk0 (E0 m) c 2 t (ix2 f e) = (m ((c : Thread nD τ).loc main_arg3) : S1024x1024.Idx → EReal) (ix2 e f) := by
  rw [iblk0_2_apply]; exact E0_v5 m c f e

/-! ## Four tiles added to zeros -/

/-- One tile's contribution at (e, d): the sum over its rows of K[r, e] * V[r, d]. -/
def tileSum (B : S1x1024x1024.Idx → EReal) (wk wv : S1024x1024.Idx → EReal) (e d : Fin 1024) : EReal :=
  ∑ r : Fin 1024, (∑ f : Fin 1024, B (ix3 (0 : Fin 1) r f) * wk (ix2 f e)) * (∑ f : Fin 1024, B (ix3 (0 : Fin 1) r f) * wv (ix2 f d))

/-- The accumulator after four tiles, copied out, at (0, e, d). -/
theorem four_added (B0 B1 B2 B3 : S1x1024x1024.Idx → EReal) (k0 k1 k2 k3 v0 v1 v2 v3 : S1024x1024.Idx → EReal) (e d : Fin 1024) :
    k0_pay3 (F := Ideal) (k0_pay2 (F := Ideal) B3 k3 v3 (k0_pay2 (F := Ideal) B2 k2 v2 (k0_pay2 (F := Ideal) B1 k1 v1 (k0_pay2 (F := Ideal) B0 k0 v0 (k0_pay1 (F := Ideal)))))) (ix3 (0 : Fin 1) e d)
      = (((0 + tileSum B0 k0 v0 e d) + tileSum B1 k1 v1 e d) + tileSum B2 k2 v2 e d) + tileSum B3 k3 v3 e d := by
  rw [k0_pay3_apply, k0_pay2_apply, k0_pay2_apply, k0_pay2_apply, k0_pay2_apply, k0_pay1_apply]
  rfl

/-- A tile's contribution, for the blocks grid point (b, j) is handed, is the specification's tile j of batch b. -/
theorem tileSum_pt (c : Dev nD) (b j : Fin 4) (e d : Fin 1024) :
    tileSum (iblk0 (E0 m) c 0 (pt b j)) (iblk0 (E0 m) c 1 (pt b j)) (iblk0 (E0 m) c 2 (pt b j)) e d
      = tile (m ((c : Thread nD τ).loc main_arg0)) (m ((c : Thread nD τ).loc main_arg2)) (m ((c : Thread nD τ).loc main_arg3)) b j e d := by
  unfold tileSum tile kk vv
  simp only [blk0_pt, blk1_pt, blk2_pt]

/-- ENTRY (b, e, d) OF THE FIRST KERNEL'S RESULT is the specification's accumulated K^T V of batch b at (e, d). -/
theorem KV_value (c : Dev nD) (b : Fin 4) (e d : Fin 1024) :
    (KVarr (E0 m) c : S4x1024x1024.Idx → EReal) (ix3 b e d)
      = kv (m ((c : Thread nD τ).loc main_arg0)) (m ((c : Thread nD τ).loc main_arg2)) (m ((c : Thread nD τ).loc main_arg3)) b e d := by
  show k0_pay3 (F := Ideal) (accOf (E0 m) c (pt b 3)) (ix3 (0 : Fin 1) e d) = _
  rw [accOf_batch]
  refine (four_added _ _ _ _ _ _ _ _ _ _ _ _ e d).trans ?_
  rw [tileSum_pt, tileSum_pt, tileSum_pt, tileSum_pt]
  rfl

end Cert.KernelIdeal.Hand

end
-- ==== Proof.IdealRegion1Array.lean ====
/- From blocks to the array, for region 1's output window: the 4 × 4 grid's output blocks tile the
   4 × 4096 × 1024 result array — point `4 b + r` writes rows `1024 r … 1024 r + 1023` of batch `b` —, every point writes
   its block back, and what point `t` writes is the body's result for the three input blocks at `t`. So after the
   region the array holds, at index `(b, l, d)`, the body's result at the point `4 b + l / 1024` read at the
   block-local index `(0, l % 1024, d)`. Beside it, the three input blocks read at a block-local index, in terms of
   their arrays' own indices. -/
import proofs.«131122_j82566451298900_2_alg».proof.Proof.IdealRegion1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! ## The index maps on the grid -/

/-- The four windows' block indices at grid point `t` = `4 b + r`, decided over the 16 points: the tile of `x` and the
    output tile are block `(b, r, 0)` of their arrays, the weight is its array's one block, the `Kᵀ V` block is `(b, 0, 0)`. -/
theorem idx_facts1 : ∀ t : Fin cfg1.N,
    win1_0.index t (0 : Fin 3) = t.val / 4 ∧ win1_0.index t (1 : Fin 3) = t.val % 4 ∧ win1_0.index t (2 : Fin 3) = 0
    ∧ win1_1.index t (0 : Fin 2) = 0 ∧ win1_1.index t (1 : Fin 2) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

/-- A grid point's number is below 16. -/
theorem pt_lt (t : Fin cfg1.N) : t.val < 16 := lt_of_lt_of_eq t.isLt N_1

/-! ## The closed form -/

/-- The grid point whose output block holds array index `(b, l, d)`: `4 b + l / 1024`. -/
def pt1 (i : S4x4096x1024.Idx) : Fin cfg1.N :=
  ⟨4 * (i 0).val + (i 1).val / 1024, by
    have h0 : (i 0).val < 4 := (i 0).isLt
    have h1 : (i 1).val < 4096 := (i 1).isLt
    rw [show cfg1.N = 16 from N_1]; omega⟩

/-- and the index's place within that block: `(0, l % 1024, d)`. -/
def loc1 (i : S4x4096x1024.Idx) : S1x1024x1024.Idx :=
  ix3 (0 : Fin 1) (⟨(i 1).val % 1024, Nat.mod_lt _ (by decide)⟩ : Fin 1024) (⟨(i 2).val, (i 2).isLt⟩ : Fin 1024)

/-- The body's result at grid point `t`, from the three input blocks there. -/
def Opt (c : Dev nD) (t : Fin cfg1.N) : Vec F S1x1024x1024 .f32 :=
  out1_3 (iblk1 V c 0 t) (iblk1 V c 1 t) (iblk1 V c 2 t)

/-- What the output array holds after the region: at each index, the body's result at the index's grid point, read at
    the index's place in the block. -/
def Oarr (c : Dev nD) : S4x4096x1024.Idx → Elt F .f32 := fun i => Opt V c (pt1 i) (loc1 i)

/-- What the body leaves in the output buffer at point `t` is `Opt` there. -/
theorem after1_3_Opt (c : Dev nD) (t : Fin cfg1.N) : (dat1 V c).after 3 t = Opt V c t := after1_3 V c t

/-- Contents `X` of the output buffer that agree, index by index, with an array `G` read through point `t`'s block are
    what a read of that block of `G` gives: the window is uncut, so the write-back moves all of `X`. -/
theorem cut_eq_read_blk (t : Fin cfg1.N) (X : Vec F S1x1024x1024 .f32) (G : S4x4096x1024.Idx → Elt F .f32)
    (h : ∀ j : S1x1024x1024.Idx, X j = G (((cfg1.win 3).blk t).view.emb j)) :
    (cfg1.win 3).cut (grid1.coords t) X = ((cfg1.win 3).blk t).view.read (Elt F) G :=
  funext fun j => h j

/-- Point `t`'s block of `Oarr`, index by index, is the body's result at `t`: an index of the block has `t` as its
    grid point and its block-local index as its place. -/
theorem Opt_eq_Oarr (c : Dev nD) (t : Fin cfg1.N) (j : S1x1024x1024.Idx) :
    Opt V c t j = Oarr V c (((cfg1.win 3).blk t).view.emb j) := by
  obtain ⟨-, -, -, -, -, -, -, -, e0, e1, e2⟩ := idx_facts1 t
  have ht := pt_lt t
  have hj0 : (j 0).val < 1 := (j 0).isLt
  have hj1 : (j 1).val < 1024 := (j 1).isLt
  have hpt : pt1 (((cfg1.win 3).blk t).view.emb j) = t := Fin.ext (by
    show 4 * (win1_3.index t (0 : Fin 3) * 1 + 1 * (j 0).val) + (win1_3.index t (1 : Fin 3) * 1024 + 1 * (j 1).val) / 1024 = t.val
    omega)
  have hloc : loc1 (((cfg1.win 3).blk t).view.emb j) = j := funext fun a => Fin.ext (by
    match a with
    | ⟨0, _⟩ => show 0 = (j 0).val; omega
    | ⟨1, _⟩ => show (win1_3.index t (1 : Fin 3) * 1024 + 1 * (j 1).val) % 1024 = (j 1).val; omega
    | ⟨2, _⟩ => show win1_3.index t (2 : Fin 3) * 1024 + 1 * (j 2).val = (j 2).val; omega)
  unfold Oarr
  rw [hpt, hloc]

/-- WHAT POINT `t` WRITES BACK is block `t` of `Oarr`. -/
theorem flushed1_3_eq (c : Dev nD) (t : Fin cfg1.N) :
    (dat1 V c).flushed 3 t = ((cfg1.win 3).blk t).view.read (Elt F) (Oarr V c) := by
  show (cfg1.win 3).cut (grid1.coords t) ((dat1 V c).after 3 t) = _
  rw [after1_3_Opt]
  exact cut_eq_read_blk t (Opt V c t) (Oarr V c) (Opt_eq_Oarr V c t)

/-! ## The cover -/

/-- An index of the array is in point `t`'s block iff each coordinate is in the block's range on its axis. -/
theorem mem_blk1_3 (t : Fin cfg1.N) (i : S4x4096x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v7).slice (win1_3.rect t)).set ↔ _
  rw [View.set_slice_whole, Rect.mem_set_unit]
  exact Iff.rfl

/-- Every index of the array is in the block of its own grid point, which writes it back: the blocks tile the array. -/
theorem cover1_3_arr (i : S4x4096x1024.Idx) :
    ∃ t : Fin cfg1.N, (cfg1.win 3).flush t = true ∧ i ∈ ((cfg1.win 3).blk t).view.set := by
  refine ⟨pt1 i, flush1_3 (pt1 i), ?_⟩
  rw [mem_blk1_3]
  obtain ⟨-, -, -, -, -, -, -, -, e0, e1, e2⟩ := idx_facts1 (pt1 i)
  have hp : (pt1 i).val = 4 * (i 0).val + (i 1).val / 1024 := rfl
  have h0 : (i 0).val < 4 := (i 0).isLt
  have h1 : (i 1).val < 4096 := (i 1).isLt
  have h2 : (i 2).val < 1024 := (i 2).isLt
  intro a
  match a with
  | ⟨0, _⟩ => show win1_3.index (pt1 i) (0 : Fin 3) * 1 ≤ (i 0).val ∧ (i 0).val < win1_3.index (pt1 i) (0 : Fin 3) * 1 + 1; omega
  | ⟨1, _⟩ => show win1_3.index (pt1 i) (1 : Fin 3) * 1024 ≤ (i 1).val ∧ (i 1).val < win1_3.index (pt1 i) (1 : Fin 3) * 1024 + 1024; omega
  | ⟨2, _⟩ => show win1_3.index (pt1 i) (2 : Fin 3) * 1024 ≤ (i 2).val ∧ (i 2).val < win1_3.index (pt1 i) (2 : Fin 3) * 1024 + 1024; omega

/-- THE ARRAY after the region: `Oarr`, everywhere. -/
theorem final1 (c : Dev nD) : (dat1 V c).arrAt 3 cfg1.N = Oarr V c :=
  (dat1 V c).arrAt_eq_of_cover 3 (Oarr V c) (fun t _ => flushed1_3_eq V c t) cover1_3_arr

/-! ## The input blocks at a block-local index -/

/-- The array index of the tile of `x` at point `t` = `4 b + r`, block-local index `(0, p, f)`: `(b, 1024 r + p, f)`. -/
def xIdx (t : Fin cfg1.N) (y : S1x1024x1024.Idx) : S4x4096x1024.Idx :=
  ix3 (⟨t.val / 4, by have := pt_lt t; omega⟩ : Fin 4)
    (⟨(t.val % 4) * 1024 + (y 1).val, by have h : (y 1).val < 1024 := (y 1).isLt; omega⟩ : Fin 4096)
    (⟨(y 2).val, (y 2).isLt⟩ : Fin 1024)

/-- The array index of the `Kᵀ V` block at point `t` = `4 b + r`, block-local index `(0, e, d)`: `(b, e, d)`. -/
def kvIdx (t : Fin cfg1.N) (y : S1x1024x1024.Idx) : S4x1024x1024.Idx :=
  ix3 (⟨t.val / 4, by have := pt_lt t; omega⟩ : Fin 4) (⟨(y 1).val, (y 1).isLt⟩ : Fin 1024) (⟨(y 2).val, (y 2).isLt⟩ : Fin 1024)

/-- Window 0's block at `t` reads the array of `x` at `xIdx t y`. -/
theorem iblk1_0_apply (c : Dev nD) (t : Fin cfg1.N) (y : S1x1024x1024.Idx) :
    iblk1 V c 0 t y = V c main_arg0 (xIdx t y) := by
  obtain ⟨e0, e1, e2, -⟩ := idx_facts1 t
  show V c main_arg0 (((cfg1.win 0).blk t).view.emb y) = _
  refine congrArg (V c main_arg0) (funext fun a => Fin.ext ?_)
  have hy0 : (y 0).val < 1 := (y 0).isLt
  match a with
  | ⟨0, _⟩ => show win1_0.index t (0 : Fin 3) * 1 + 1 * (y 0).val = t.val / 4; omega
  | ⟨1, _⟩ => show win1_0.index t (1 : Fin 3) * 1024 + 1 * (y 1).val = (t.val % 4) * 1024 + (y 1).val; omega
  | ⟨2, _⟩ => show win1_0.index t (2 : Fin 3) * 1024 + 1 * (y 2).val = (y 2).val; omega

/-- Window 1's block at any point is the whole weight array. -/
theorem iblk1_1_apply (c : Dev nD) (t : Fin cfg1.N) (y : S1024x1024.Idx) :
    iblk1 V c 1 t y = V c main_v1 y := by
  obtain ⟨-, -, -, e0, e1, -⟩ := idx_facts1 t
  show V c main_v1 (((cfg1.win 1).blk t).view.emb y) = _
  refine congrArg (V c main_v1) (funext fun a => Fin.ext ?_)
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- Window 2's block at `t` reads the `Kᵀ V` array at `kvIdx t y`. -/
theorem iblk1_2_apply (c : Dev nD) (t : Fin cfg1.N) (y : S1x1024x1024.Idx) :
    iblk1 V c 2 t y = V c main_v6 (kvIdx t y) := by
  obtain ⟨-, -, -, -, -, e0, e1, e2, -⟩ := idx_facts1 t
  show V c main_v6 (((cfg1.win 2).blk t).view.emb y) = _
  refine congrArg (V c main_v6) (funext fun a => Fin.ext ?_)
  have hy0 : (y 0).val < 1 := (y 0).isLt
  match a with
  | ⟨0, _⟩ => show win1_2.index t (0 : Fin 3) * 1 + 1 * (y 0).val = t.val / 4; omega
  | ⟨1, _⟩ => show win1_2.index t (1 : Fin 3) * 1024 + 1 * (y 1).val = (y 1).val; omega
  | ⟨2, _⟩ => show win1_2.index t (2 : Fin 3) * 1024 + 1 * (y 2).val = (y 2).val; omega

end Cert.KernelIdeal.Hand

end
-- ==== Proof.IdealRegion1Value.lean ====
/- The value the output kernel's body stores, read at an index, at the ideal (extended real) instance: for a row
   `p` of the tile and an output column `d`,
   `k1_pay1 x0 x1 x2 (0, p, d) = (∑ e, (∑ f, x0 (0, p, f) * x1 (f, e)) * x2 (0, e, d)) * c`,
   `c` the extended real the word `0x3D000000` encodes: the tile of `x` times the transposed query weight, times the
   batch's `Kᵀ V` block, scaled. Both matrix products accumulate into a zero splat, so each is the bare sum over its
   contraction index; the format changes are the identity on extended reals; the shape casts drop or add the leading
   unit axis. -/
import proofs.«131122_j82566451298900_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx

/-- The dimension numbers of both of the body's matrix products: rows × contraction times contraction × columns. -/
local notation "𝔻" => dot_S1024x1024_S1024x1024_S1024x1024_1_0_0_1_n_n

/-- The left operand's row coordinate at output index `j` is `j`'s row, -/
theorem lhsIdx_row (j : S1024x1024.Idx) (q : (DotDims.contr 𝔻).Idx) : (DotDims.lhsIdx 𝔻 j q 0).val = (j 0).val := by
  unfold DotDims.lhsIdx
  rw [dif_neg (show ¬(0 : Fin S1024x1024.rank) ∈ DotDims.lhsBatch 𝔻 by decide), dif_pos (show (0 : Fin S1024x1024.rank) ∈ DotDims.lhsNonContracting 𝔻 by decide)]
  rfl
/-- and the right operand's column coordinate is `j`'s column. -/
theorem rhsIdx_col (j : S1024x1024.Idx) (q : (DotDims.contr 𝔻).Idx) : (DotDims.rhsIdx 𝔻 j q 1).val = (j 1).val := by
  unfold DotDims.rhsIdx
  rw [dif_neg (show ¬(1 : Fin S1024x1024.rank) ∈ DotDims.rhsBatch 𝔻 by decide), dif_pos (show (1 : Fin S1024x1024.rank) ∈ DotDims.rhsNonContracting 𝔻 by decide)]
  rfl

/-- A rows-by-columns product into the zero splat, read at `(p, d)`: the sum over the contraction coordinate `e` of
    the left operand at `(p, e)` times the right at `(e, d)`. -/
theorem matmul_zero_ix2_apply {φ₁ φ₂ : FTy} (prec : Option ContractPrecision)
    (A : FVec Ideal S1024x1024 φ₁) (B : FVec Ideal S1024x1024 φ₂) (p d : Fin 1024) :
    matmul 𝔻 prec A B (constant S1024x1024 .f32 0x00000000#32) (ix2 p d)
      = ∑ e : Fin 1024, A (ix2 p e) * B (ix2 e d) := by
  simp only [matmul]
  rw [Ideal.matmul_constant_zero_apply, ← Equiv.sum_comp (ValueIdx.contrEquiv1 𝔻 1024 rfl rfl).symm]
  refine Finset.sum_congr rfl fun k _ => ?_
  have hk := ValueIdx.contrEquiv1_symm_val 𝔻 1024 rfl rfl k
  have el : DotDims.lhsIdx 𝔻 (ix2 p d) ((ValueIdx.contrEquiv1 𝔻 1024 rfl rfl).symm k) = ix2 p k := funext fun a => Fin.ext (by
    match a with
    | ⟨0, _⟩ => exact lhsIdx_row _ _
    | ⟨1, _⟩ => exact (DotDims.lhsIdx_val_of_single 𝔻 rfl _ _).trans hk)
  have er : DotDims.rhsIdx 𝔻 (ix2 p d) ((ValueIdx.contrEquiv1 𝔻 1024 rfl rfl).symm k) = ix2 k d := funext fun a => Fin.ext (by
    match a with
    | ⟨0, _⟩ => exact (DotDims.rhsIdx_val_of_single 𝔻 rfl _ _).trans hk
    | ⟨1, _⟩ => exact rhsIdx_col _ _)
  rw [el, er]

/-- The scale `c` as an extended real: the value of the f32 word `0x3D000000`. -/
local notation "𝕔" => Ideal.ofBits FTy.f32 0x3D000000#32

/-- What the body stores, at row `p` and column `d` of the output tile: row `p` of the tile of `x` (`x0`) times the
    transposed query weight (`x1`), contracted with column `d` of the batch's `Kᵀ V` block (`x2`), times `c`. -/
theorem k1_pay1_apply (x0 x2 : S1x1024x1024.Idx → EReal) (x1 : S1024x1024.Idx → EReal) (p d : Fin 1024) :
    k1_pay1 (F := Ideal) x0 x1 x2 (ix3 (0 : Fin 1) p d)
      = (∑ e : Fin 1024, (∑ f : Fin 1024, x0 (ix3 (0 : Fin 1) p f) * x1 (ix2 f e)) * x2 (ix3 (0 : Fin 1) e d)) * 𝕔 := by
  unfold k1_pay1
  -- the last shape cast adds the unit axis; under it the product with the splat of `c`
  refine (shapeCast_ab_1ab_apply _ _ (0 : Fin 1) p d).trans ?_
  refine congrArg (· * 𝕔) ?_
  -- the second product, into the zero splat
  refine (matmul_zero_ix2_apply (some .fp32) _ _ p d).trans ?_
  refine Finset.sum_congr rfl fun e _ => ?_
  refine congrArg₂ (· * ·) ?_ (shapeCast_1ab_ab_apply x2 _ e d)
  -- the first product, into the zero splat
  refine (matmul_zero_ix2_apply none _ _ p e).trans ?_
  refine Finset.sum_congr rfl fun f _ => ?_
  refine congrArg₂ (· * ·) ?_ ?_
  · -- the narrowing is the identity; the shape cast drops the unit axis
    exact shapeCast_1ab_ab_apply x0 _ p f
  · -- a shape cast to the same shape
    exact congrFun (shapeCast_self x1 _) _

end Cert.KernelIdeal.Hand

end
-- ==== Proof.IdealBridgeOut.lean ====
/-
  The second kernel's result, entry by entry, over the extended reals: entry (b, l, d) of the array it leaves is
  (sum over e of Q[b, l, e] * KV[b, e, d]) / 32 with Q = X Wq^T and KV the first kernel's result. The point that writes
  row l of batch b is (b, l / 1024); it was handed row tile l / 1024 of X, the transposed query weights and block b of
  the first kernel's result.
-/
import proofs.«131122_j82566451298900_2_alg».proof.Proof.IdealBridgeKV
import proofs.«131122_j82566451298900_2_alg».proof.Proof.IdealRegion1Array
import proofs.«131122_j82566451298900_2_alg».proof.Proof.IdealRegion1Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.LinAttn

variable (m : (ℓ : Loc nD τ sig) → Buf (Elt Ideal) ℓ)

/-! ## What the second kernel finds in its arrays -/

/-- X is still as launched: the first kernel only reads it. -/
theorem E1_arg0 (c : Dev nD) : E1 m c main_arg0 = m ((c : Thread nD τ).loc main_arg0) :=
  (W2_arr m c 0).trans (((dat0 (E0 m) c).arrAt_in 0 rfl _).trans ((A_eq0 (E0 m) c 0).trans (E0_arg0 m c)))
/-- The transposed query weights at (f, e) are the query weights at (e, f): the first kernel does not touch them. -/
theorem E1_v1 (c : Dev nD) (f e : Fin 1024) :
    (E1 m c main_v1 : S1024x1024.Idx → EReal) (ix2 f e) = (m ((c : Thread nD τ).loc main_arg1) : S1024x1024.Idx → EReal) (ix2 e f) := by
  rw [show E1 m c main_v1 = E0 m c main_v1 from W2_of_ne m c main_v1 (by decide)]
  exact host_v1_apply (W0 m c) f e
/-- The accumulated K^T V array is what the first kernel left. -/
theorem E1_v6 (c : Dev nD) : E1 m c main_v6 = KVarr (E0 m) c :=
  (W2_arr m c 3).trans (final0 (E0 m) c)

/-! ## The point that writes row l of batch b, and the blocks it reads -/

theorem xIdx_pt1 (b : Fin 4) (l : Fin 4096) (d f : Fin 1024) :
    xIdx (pt1 (ix3 b l d)) (ix3 (0 : Fin 1) (⟨l.val % 1024, Nat.mod_lt _ (by decide)⟩ : Fin 1024) f) = ix3 b l f := by
  have hb : b.val < 4 := b.isLt
  have hl : l.val < 4096 := l.isLt
  funext a; apply Fin.ext
  match a with
  | ⟨0, _⟩ => show (4 * b.val + l.val / 1024) / 4 = b.val; omega
  | ⟨1, _⟩ => show (4 * b.val + l.val / 1024) % 4 * 1024 + l.val % 1024 = l.val; omega
  | ⟨2, _⟩ => rfl

theorem kvIdx_pt1 (b : Fin 4) (l : Fin 4096) (d e d' : Fin 1024) :
    kvIdx (pt1 (ix3 b l d)) (ix3 (0 : Fin 1) e d') = ix3 b e d' := by
  have hb : b.val < 4 := b.isLt
  have hl : l.val < 4096 := l.isLt
  funext a; apply Fin.ext
  match a with
  | ⟨0, _⟩ => show (4 * b.val + l.val / 1024) / 4 = b.val; omega
  | ⟨1, _⟩ => rfl
  | ⟨2, _⟩ => rfl

/-- The second kernel's one store is of the whole output block: what it leaves is its payload. -/
theorem out1_3_eq {F : FTy → Type} [FloatOps F] (x0 : Vec F S1x1024x1024 .f32) (x1 : Vec F S1024x1024 .bf16) (x2 : Vec F S1x1024x1024 .f32) :
    out1_3 x0 x1 x2 = k1_pay1 x0 x1 x2 := by
  unfold out1_3
  rw [View.canon_unit_zero (S := S1x1024x1024) off3_zero]
  simp only [View.ld_unit_zero (S := S1x1024x1024) off3_zero, View.ld_unit_zero (S := S1024x1024) off2_zero]

/-- The payload at row p, column d, once its two inner sums are named: (sum over e of Q e * KV e) / 32. -/
theorem out_entry (x0 x2 : S1x1024x1024.Idx → EReal) (x1 : S1024x1024.Idx → EReal) (p d : Fin 1024) (Q KVf : Fin 1024 → EReal)
    (hq : ∀ e : Fin 1024, (∑ f : Fin 1024, x0 (ix3 (0 : Fin 1) p f) * x1 (ix2 f e)) = Q e)
    (hkv : ∀ e : Fin 1024, x2 (ix3 (0 : Fin 1) e d) = KVf e) :
    k1_pay1 (F := Ideal) x0 x1 x2 (ix3 (0 : Fin 1) p d) = (∑ e : Fin 1024, Q e * KVf e) * cst := by
  rw [k1_pay1_apply]
  simp only [hq, hkv]
  rfl

/-- ENTRY (b, l, d) OF THE SECOND KERNEL'S RESULT is the two-pass formula of the specification. -/
theorem O_value (c : Dev nD) (b : Fin 4) (l : Fin 4096) (d : Fin 1024) :
    (Oarr (E1 m) c : S4x4096x1024.Idx → EReal) (ix3 b l d)
      = kerOut (m ((c : Thread nD τ).loc main_arg0)) (m ((c : Thread nD τ).loc main_arg1)) (m ((c : Thread nD τ).loc main_arg2)) (m ((c : Thread nD τ).loc main_arg3)) (ix3 b l d) := by
  rw [kerOut_ix3]
  unfold Oarr Opt
  rw [out1_3_eq]
  have hloc : loc1 (ix3 b l d) = ix3 (0 : Fin 1) (⟨l.val % 1024, Nat.mod_lt _ (by decide)⟩ : Fin 1024) d := rfl
  rw [hloc]
  refine out_entry _ _ _ _ d _ _ (fun e => ?_) (fun e => ?_)
  · show _ = q (m ((c : Thread nD τ).loc main_arg0)) (m ((c : Thread nD τ).loc main_arg1)) b l e
    unfold q
    refine Finset.sum_congr rfl fun f _ => ?_
    rw [iblk1_0_apply, iblk1_1_apply, xIdx_pt1, E1_arg0, E1_v1]
  · show _ = kv (m ((c : Thread nD τ).loc main_arg0)) (m ((c : Thread nD τ).loc main_arg2)) (m ((c : Thread nD τ).loc main_arg3)) b e d
    rw [iblk1_2_apply, kvIdx_pt1, E1_v6]
    exact KV_value m c b e d

/-- THE RESULT ARRAY at the end of the run is the specification's two-pass formula of the four arguments. -/
theorem result_value (c : Dev nD) :
    W3 m c (Proc.devRef .tc main_v7)
      = kerOut (m ((c : Thread nD τ).loc main_arg0)) (m ((c : Thread nD τ).loc main_arg1)) (m ((c : Thread nD τ).loc main_arg2)) (m ((c : Thread nD τ).loc main_arg3)) := by
  rw [show W3 m c (Proc.devRef .tc main_v7) = (dat1 (E1 m) c).arrAt 3 cfg1.N from W3_arr m c 3, final1]
  funext i
  rw [eq_ix3 i]
  exact O_value m c (i 0) (i 1) (i 2)

end Cert.KernelIdeal.Hand

end
-- ==== Proof.RefValue.lean ====
import proofs.«131122_j82566451298900_2_alg».proof.Proof.Gen.ReferenceIdeal.Read
import proofs.«131122_j82566451298900_2_alg».proof.Proof.LinAttnSpec
/-
  The reference program's result, read one element at a time, is the mathematical output refOut of LinAttnSpec:
    %0 = q = x wqᵀ, %1 = k = x wkᵀ, %2 = v = x wvᵀ   (three contractions over the model axis),
    %3 = q kᵀ per batch (contraction over the head axis), %5 = %3 · c (c the broadcast constant),
    %6 = %5 v per batch (contraction over the 4096 rows).
  Each contraction at an index is a finite sum of products of the operands at computed indices; those indices are
  identified with the coordinate form (ix3 / ix2) coordinate by coordinate.
-/

noncomputable section

open scoped BigOperators

namespace Cert.ReferenceIdeal.RefValue

open Cert.ReferenceIdeal Cert.ReferenceIdeal.Gen Cert.ReferenceIdeal.Read Idealize.ShloMosaic Idealize.ShloMosaic.ValueIdx
open Cert.LinAttn

/-! ## The contractions' operand indices, by coordinates -/

theorem lidx_v0 (b : Fin 4) (l : Fin 4096) (e f : Fin 1024) : lidx_main_v0 (ix3 b l e) f = ix3 b l f :=
  funext fun a => Fin.ext (by match a with | ⟨0, _⟩ => rfl | ⟨1, _⟩ => rfl | ⟨2, _⟩ => rfl)
theorem ridx_v0 (b : Fin 4) (l : Fin 4096) (e f : Fin 1024) : ridx_main_v0 (ix3 b l e) f = ix2 e f :=
  funext fun a => Fin.ext (by match a with | ⟨0, _⟩ => rfl | ⟨1, _⟩ => rfl)
theorem lidx_v1 (b : Fin 4) (l : Fin 4096) (e f : Fin 1024) : lidx_main_v1 (ix3 b l e) f = ix3 b l f :=
  funext fun a => Fin.ext (by match a with | ⟨0, _⟩ => rfl | ⟨1, _⟩ => rfl | ⟨2, _⟩ => rfl)
theorem ridx_v1 (b : Fin 4) (l : Fin 4096) (e f : Fin 1024) : ridx_main_v1 (ix3 b l e) f = ix2 e f :=
  funext fun a => Fin.ext (by match a with | ⟨0, _⟩ => rfl | ⟨1, _⟩ => rfl)
theorem lidx_v2 (b : Fin 4) (l : Fin 4096) (e f : Fin 1024) : lidx_main_v2 (ix3 b l e) f = ix3 b l f :=
  funext fun a => Fin.ext (by match a with | ⟨0, _⟩ => rfl | ⟨1, _⟩ => rfl | ⟨2, _⟩ => rfl)
theorem ridx_v2 (b : Fin 4) (l : Fin 4096) (e f : Fin 1024) : ridx_main_v2 (ix3 b l e) f = ix2 e f :=
  funext fun a => Fin.ext (by match a with | ⟨0, _⟩ => rfl | ⟨1, _⟩ => rfl)
theorem lidx_v3 (b : Fin 4) (l m : Fin 4096) (e : Fin 1024) : lidx_main_v3 (ix3 b l m) e = ix3 b l e :=
  funext fun a => Fin.ext (by match a with | ⟨0, _⟩ => rfl | ⟨1, _⟩ => rfl | ⟨2, _⟩ => rfl)
theorem ridx_v3 (b : Fin 4) (l m : Fin 4096) (e : Fin 1024) : ridx_main_v3 (ix3 b l m) e = ix3 b m e :=
  funext fun a => Fin.ext (by match a with | ⟨0, _⟩ => rfl | ⟨1, _⟩ => rfl | ⟨2, _⟩ => rfl)
theorem lidx_v6 (b : Fin 4) (l : Fin 4096) (d : Fin 1024) (m : Fin 4096) : lidx_main_v6 (ix3 b l d) m = ix3 b l m :=
  funext fun a => Fin.ext (by match a with | ⟨0, _⟩ => rfl | ⟨1, _⟩ => rfl | ⟨2, _⟩ => rfl)
theorem ridx_v6 (b : Fin 4) (l : Fin 4096) (d : Fin 1024) (m : Fin 4096) : ridx_main_v6 (ix3 b l d) m = ix3 b m d :=
  funext fun a => Fin.ext (by match a with | ⟨0, _⟩ => rfl | ⟨1, _⟩ => rfl | ⟨2, _⟩ => rfl)

/-! ## The three projections -/

theorem v0_ix3 (x0 : S4x4096x1024.Idx → EReal) (x1 : S1024x1024.Idx → EReal) (b : Fin 4) (l : Fin 4096) (e : Fin 1024) :
    val_main_v0 (F := Ideal) x0 x1 (ix3 b l e) = q x0 x1 b l e := by
  rw [val_main_v0_apply]
  simp only [lidx_v0, ridx_v0]
  rfl
theorem v1_ix3 (x0 : S4x4096x1024.Idx → EReal) (x2 : S1024x1024.Idx → EReal) (b : Fin 4) (l : Fin 4096) (e : Fin 1024) :
    val_main_v1 (F := Ideal) x0 x2 (ix3 b l e) = kk x0 x2 b l e := by
  rw [val_main_v1_apply]
  simp only [lidx_v1, ridx_v1]
  rfl
theorem v2_ix3 (x0 : S4x4096x1024.Idx → EReal) (x3 : S1024x1024.Idx → EReal) (b : Fin 4) (l : Fin 4096) (d : Fin 1024) :
    val_main_v2 (F := Ideal) x0 x3 (ix3 b l d) = vv x0 x3 b l d := by
  rw [val_main_v2_apply]
  simp only [lidx_v2, ridx_v2]
  rfl

/-! ## The scaled scores -/

theorem v5_ix3 (x0 : S4x4096x1024.Idx → EReal) (x1 x2 : S1024x1024.Idx → EReal) (b : Fin 4) (l m : Fin 4096) :
    val_main_v5 (F := Ideal) x0 x1 x2 (ix3 b l m) = (∑ e : Fin 1024, q x0 x1 b l e * kk x0 x2 b m e) * cst := by
  rw [val_main_v5_apply, val_main_v4_apply, val_main_cst_apply, val_main_v3_apply]
  simp only [lidx_v3, ridx_v3, v0_ix3, v1_ix3]
  rfl

/-! ## The reference is the mathematical output -/

theorem ref_is_spec (x0 : S4x4096x1024.Idx → EReal) (x1 x2 x3 : S1024x1024.Idx → EReal) :
    val_main_v6 (F := Ideal) x0 x1 x2 x3 = refOut x0 x1 x2 x3 := by
  funext i
  obtain ⟨b, l, d, rfl⟩ : ∃ b l d, i = ix3 b l d := ⟨i 0, i 1, i 2, eq_ix3 i⟩
  rw [val_main_v6_apply, refOut_ix3]
  simp only [lidx_v6, ridx_v6, v5_ix3, v2_ix3]

end Cert.ReferenceIdeal.RefValue

end
-- ==== Proof.FiniteInputs.lean ====
import proofs.«131122_j82566451298900_2_alg».proof.Pre_finite_inputs
import Idealize.ShloMosaic.Lib.ReduceAll
import proofs.«131122_j82566451298900_2_alg».proof.Proof.LinAttnSpec
/-
  The precondition "every entry of the four input arrays is finite", read back.
  The predicate is the conjunction of four tests all(|a| < +∞), one per array; it is the one-bit word 1 exactly when
  every test is 1, a test all(p) is 1 only if p is 1 at every index, and |a| < +∞ over the extended reals
  (|a| = max a (−a), +∞ = ⊤ the value the word 0x7F800000 denotes) fails at both infinities: so each entry is a real.
-/

noncomputable section

namespace Cert.LinAttn

open Idealize.ShloMosaic Idealize.ShloMosaic.ValueIdx

/-- The f32 word 0x7F800000 denotes +∞. -/
theorem inf_eq_top : Ideal.ofBits .f32 0x7F800000#32 = ⊤ := by simp [Ideal.ofBits, Ideal.ieee]

/-- An extended real whose absolute value max y (−y) is below +∞ is a real number. -/
theorem real_of_abs_lt_inf (y : EReal)
    (h : Ideal.cmp .olt (max y (-y)) (Ideal.ofBits .f32 0x7F800000#32) = 1#1) : ∃ r : ℝ, y = (r : EReal) := by
  rw [inf_eq_top] at h
  unfold Ideal.cmp at h
  induction y using EReal.rec with
  | bot => simp at h
  | coe r => exact ⟨r, rfl⟩
  | top => simp at h

/-- If the predicate is all ones, every entry of each of the four arrays is a real number. -/
theorem real_of_pre [Cert.Pre_finite_inputs.Facts] (x0 : SX.Idx → EReal) (x1 x2 x3 : SW.Idx → EReal)
    (h : Cert.Pre_finite_inputs.fn (F := Ideal) x0 x1 x2 x3 = (fun _ => 1#1)) :
    IsRealArr x0 ∧ IsRealArr x1 ∧ IsRealArr x2 ∧ IsRealArr x3 := by
  haveI : Subsingleton Cert.Pre_finite_inputs.S_.Idx := ⟨fun a b => funext fun d => d.elim0⟩
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs_lt_inf (x0 i) (Host.reduce_andi_all _ _ _ _ _ h0' i),
    fun i => real_of_abs_lt_inf (x1 i) (Host.reduce_andi_all _ _ _ _ _ h1 i),
    fun i => real_of_abs_lt_inf (x2 i) (Host.reduce_andi_all _ _ _ _ _ h2 i),
    fun i => real_of_abs_lt_inf (x3 i) (Host.reduce_andi_all _ _ _ _ _ h3 i)⟩

end Cert.LinAttn

end
-- ==== Proof.lean ====
/-
  Softmax-free attention, kernel against reference, over the extended reals.

  The kernel is two passes over the sequence. The first keeps a 1024 x 1024 accumulator per batch and adds, row tile by
  row tile, K^T V with K = X Wk^T and V = X Wv^T; the second multiplies each row tile of Q = X Wq^T by the accumulated
  matrix and scales by 1/32. The reference forms the scores (Q K^T) / 32 row by row and multiplies by V.
  Both are sum over m of sum over e of Q[l, e] K[m, e] V[m, d] / 32; they differ in the order of the two sums, in where
  the factor 1/32 sits, and in the grouping of the sum over m into four tiles added one after the other to zeros. On
  real entries the rearrangement is distributivity and commutativity of finite sums; the precondition (every input entry
  finite) makes every entry real, which the law needs: on the extended reals a product does not distribute over a sum
  of infinities of opposite signs.

  The three frames: each kernel program runs as host operations (the weight matrices transposed) followed by the two
  pipelined kernels; every fair execution terminates without a fault, and the argument arrays are never written. The
  reference is a line of host operations. The kernel as printed and its reading over the extended reals differ by no
  rewrite, so the fourth conjunct states nothing.
-/
import proofs.«131122_j82566451298900_2_alg».proof.Defs
import proofs.«131122_j82566451298900_2_alg».proof.Proof.Gen.Kernel
import proofs.«131122_j82566451298900_2_alg».proof.Proof.Gen.KernelIdeal
import proofs.«131122_j82566451298900_2_alg».proof.Proof.Gen.ReferenceIdeal
import proofs.«131122_j82566451298900_2_alg».proof.Proof.Gen.Pre_finite_inputs
import proofs.«131122_j82566451298900_2_alg».proof.Proof.Gen.ReferenceIdeal.Run
import proofs.«131122_j82566451298900_2_alg».proof.Proof.BitsRun
import proofs.«131122_j82566451298900_2_alg».proof.Proof.IdealRun
import proofs.«131122_j82566451298900_2_alg».proof.Proof.IdealBridgeOut
import proofs.«131122_j82566451298900_2_alg».proof.Proof.RefValue
import proofs.«131122_j82566451298900_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as launched. -/
theorem frame_kernel : @Cert.frame_Kernel Cert.Kernel.Gen.facts Cert.Pre_finite_inputs.Gen.facts :=
  fun m ρ _ => Cert.Kernel.Hand.frame (F := Bits) m ρ

/-- So does its reading over the extended reals. -/
theorem frame_kernel_ideal : @Cert.frame_KernelIdeal Cert.KernelIdeal.Gen.facts Cert.Pre_finite_inputs.Gen.facts :=
  fun m ρ _ => Cert.KernelIdeal.Hand.frame (F := Ideal) m ρ

/-- The reference is a line of host operations: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the four arguments, with every entry finite, both programs end with the same result:
    the kernel's is the two-pass formula, the reference's the score formula, and on real entries the two agree. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.LinAttn.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c =>
      ⟨(h c _ (Cert.KernelIdeal.Hand.mem_uc Cert.KernelIdeal.main_v7 (by decide))).trans (Cert.KernelIdeal.Hand.result_value m c),
       (h c _ (Cert.KernelIdeal.Hand.mem_uc Cert.KernelIdeal.main_arg0 (by decide))).trans (Cert.KernelIdeal.Hand.W3_main_arg0 m c),
       (h c _ (Cert.KernelIdeal.Hand.mem_uc Cert.KernelIdeal.main_arg1 (by decide))).trans (Cert.KernelIdeal.Hand.W3_main_arg1 m c),
       (h c _ (Cert.KernelIdeal.Hand.mem_uc Cert.KernelIdeal.main_arg2 (by decide))).trans (Cert.KernelIdeal.Hand.W3_main_arg2 m c),
       (h c _ (Cert.KernelIdeal.Hand.mem_uc Cert.KernelIdeal.main_arg3 (by decide))).trans (Cert.KernelIdeal.Hand.W3_main_arg3 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨hx, hq, hk, hv⟩ := Cert.LinAttn.real_of_pre _ _ _ _ (hpre c)
    rw [Cert.ReferenceIdeal.Read.val_main_v6_eq, Cert.ReferenceIdeal.RefValue.ref_is_spec,
      (hagree c).1, (hagree c).2.1, (hagree c).2.2.1, (hagree c).2.2.2]
    exact (Cert.LinAttn.kerOut_eq_refOut hx hq hk hv).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
